-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S_ : Shape := ⟨0, ![]⟩

class Facts : Prop where
  bcast_S_S8x400000x4 : S_.BroadcastsInDim S8x400000x4 (![] : Fin 0 → Fin S8x400000x4.rank)
  reducesTo_S8x400000x4_S_d0_1_2 : S8x400000x4.ReducesTo [0, 1, 2] S_
  h_S_ : 0 < S_.numel
  bcast_S_S8x400000x3 : S_.BroadcastsInDim S8x400000x3 (![] : Fin 0 → Fin S8x400000x3.rank)
  reducesTo_S8x400000x3_S_d0_1_2 : S8x400000x3.ReducesTo [0, 1, 2] S_
  bcast_S_S8x2x3 : S_.BroadcastsInDim S8x2x3 (![] : Fin 0 → Fin S8x2x3.rank)
  reducesTo_S8x2x3_S_d0_1_2 : S8x2x3.ReducesTo [0, 1, 2] S_
  bcast_S_S8x3 : S_.BroadcastsInDim S8x3 (![] : Fin 0 → Fin S8x3.rank)
  reducesTo_S8x3_S_d0_1 : S8x3.ReducesTo [0, 1] S_

variable [Facts]

def fn_part1 {F : FTy → Type} [FloatOps F] (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  main_v18

def fn {F : FTy → Type} [FloatOps F] (main_arg0 : FVec F S8x400000x4 .f32) (main_arg1 : FVec F S8x400000x3 .f32) (main_arg2 : IVec S3200000 32) (main_arg3 : FVec F S8x2x3 .f32) (main_arg4 : FVec F S8x3 .f32) : IVec S_ 1 :=
  let main_v0 : FVec F S8x400000x4 .f32 := Host.absf main_arg0
  let main_cst : FVec F S_ .f32 := constant S_ .f32 0x7F800000#32
  let main_v1 : FVec F S8x400000x4 .f32 := broadcastInDim S8x400000x4 ![] bcast_S_S8x400000x4 main_cst
  let main_v2 : IVec S8x400000x4 1 := cmpf .olt main_v0 main_v1
  let main_c : IVec S_ 1 := constantI S_ 1 1#1
  let main_v3 : IVec S_ 1 := (fun x v => Host.reduce IntOp.andi x v reducesTo_S8x400000x4_S_d0_1_2 h_S_) main_v2 main_c
  let main_v4 : FVec F S8x400000x3 .f32 := Host.absf main_arg1
  let main_cst_0 : FVec F S_ .f32 := constant S_ .f32 0x7F800000#32
  let main_v5 : FVec F S8x400000x3 .f32 := broadcastInDim S8x400000x3 ![] bcast_S_S8x400000x3 main_cst_0
  let main_v6 : IVec S8x400000x3 1 := cmpf .olt main_v4 main_v5
  let main_c_1 : IVec S_ 1 := constantI S_ 1 1#1
  let main_v7 : IVec S_ 1 := (fun x v => Host.reduce IntOp.andi x v reducesTo_S8x400000x3_S_d0_1_2 h_S_) main_v6 main_c_1
  let main_v8 : IVec S_ 1 := andi main_v3 main_v7
  let main_v9 : FVec F S8x2x3 .f32 := Host.absf main_arg3
  let main_cst_2 : FVec F S_ .f32 := constant S_ .f32 0x7F800000#32
  let main_v10 : FVec F S8x2x3 .f32 := broadcastInDim S8x2x3 ![] bcast_S_S8x2x3 main_cst_2
  let main_v11 : IVec S8x2x3 1 := cmpf .olt main_v9 main_v10
  let main_c_3 : IVec S_ 1 := constantI S_ 1 1#1
  let main_v12 : IVec S_ 1 := (fun x v => Host.reduce IntOp.andi x v reducesTo_S8x2x3_S_d0_1_2 h_S_) main_v11 main_c_3
  let main_v13 : IVec S_ 1 := andi main_v8 main_v12
  let main_v14 : FVec F S8x3 .f32 := Host.absf main_arg4
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_v13 main_v16
-- ==== Kernel.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S8x1x3 : Shape := ⟨3, ![8, 1, 3]⟩
abbrev S4x5000x4 : Shape := ⟨3, ![4, 5000, 4]⟩
abbrev S4x1x3 : Shape := ⟨3, ![4, 1, 3]⟩
abbrev S4x5000x3 : Shape := ⟨3, ![4, 5000, 3]⟩
abbrev S4x3 : Shape := ⟨2, ![4, 3]⟩
abbrev S_ : Shape := ⟨0, ![]⟩
abbrev S8x400000 : Shape := ⟨2, ![8, 400000]⟩
abbrev S8x640x4 : Shape := ⟨3, ![8, 640, 4]⟩
abbrev S8x640x3 : Shape := ⟨3, ![8, 640, 3]⟩
abbrev S8x640 : Shape := ⟨2, ![8, 640]⟩
abbrev S8x640x1 : Shape := ⟨3, ![8, 640, 1]⟩

abbrev nBuf : Space → Nat
  | .hbm => 47
  | .vmem => 20
  | .smem => 0
  | _ => 0

abbrev bufTy : (tb : Table) → Fin (tcTables nBuf tb) → BufTy
  | .hbm, ⟨0, _⟩ => ⟨S8x400000x4, .f32⟩
  | .hbm, ⟨1, _⟩ => ⟨S8x400000x3, .f32⟩
  | .hbm, ⟨2, _⟩ => ⟨S3200000, .i32⟩
  | .hbm, ⟨3, _⟩ => ⟨S8x2x3, .f32⟩
  | .hbm, ⟨4, _⟩ => ⟨S8x3, .f32⟩
  | .hbm, ⟨5, _⟩ => ⟨S8x1x3, .f32⟩
  | .hbm, ⟨6, _⟩ => ⟨S8x1x3, .f32⟩
  | .hbm, ⟨7, _⟩ => ⟨S8x3, .f32⟩
  | .hbm, ⟨8, _⟩ => ⟨S8x3, .f32⟩
  | .hbm, ⟨9, _⟩ => ⟨S_, .f32⟩
  | .hbm, ⟨10, _⟩ => ⟨S8x3, .f32⟩
  | .hbm, ⟨11, _⟩ => ⟨S8x3, .f32⟩
  | .hbm, ⟨12, _⟩ => ⟨S_, .f32⟩
  | .hbm, ⟨13, _⟩ => ⟨S8x3, .f32⟩
  | .hbm, ⟨14, _⟩ => ⟨S8x3, .f32⟩
  | .hbm, ⟨15, _⟩ => ⟨S8x3, .f32⟩
  | .hbm, ⟨16, _⟩ => ⟨S_, .f32⟩
  | .hbm, ⟨17, _⟩ => ⟨S8x3, .f32⟩
  | .hbm, ⟨18, _⟩ => ⟨S8x3, .f32⟩
  | .hbm, ⟨19, _⟩ => ⟨S8x3, .f32⟩
  | .hbm, ⟨20, _⟩ => ⟨S_, .f32⟩
  | .hbm, ⟨21, _⟩ => ⟨S8x3, .f32⟩
  | .hbm, ⟨22, _⟩ => ⟨S8x3, .f32⟩
  | .hbm, ⟨23, _⟩ => ⟨S_, .f32⟩
  | .hbm, ⟨24, _⟩ => ⟨S_, .f32⟩
  | .hbm, ⟨25, _⟩ => ⟨S8x3, .f32⟩
  | .hbm, ⟨26, _⟩ => ⟨S8x3, .f32⟩
  | .hbm, ⟨27, _⟩ => ⟨S8x1x3, .f32⟩
  | .hbm, ⟨28, _⟩ => ⟨S8x3, .f32⟩
  | .hbm, ⟨29, _⟩ => ⟨S8x3, .f32⟩
  | .hbm, ⟨30, _⟩ => ⟨S8x3, .f32⟩
  | .hbm, ⟨31, _⟩ => ⟨S_, .f32⟩
  | .hbm, ⟨32, _⟩ => ⟨S8x3, .f32⟩
  | .hbm, ⟨33, _⟩ => ⟨S8x3, .f32⟩
  | .hbm, ⟨34, _⟩ => ⟨S_, .f32⟩
  | .hbm, ⟨35, _⟩ => ⟨S_, .f32⟩
  | .hbm, ⟨36, _⟩ => ⟨S8x3, .f32⟩
  | .hbm, ⟨37, _⟩ => ⟨S8x3, .f32⟩
  | .hbm, ⟨38, _⟩ => ⟨S8x1x3, .f32⟩
  | .hbm, ⟨39, _⟩ => ⟨S8x3, .f32⟩
  | .hbm, ⟨40, _⟩ => ⟨S8x3, .f32⟩
  | .hbm, ⟨41, _⟩ => ⟨S8x3, .f32⟩
  | .hbm, ⟨42, _⟩ => ⟨S8x400000, .i32⟩
  | .hbm, ⟨43, _⟩ => ⟨S8x400000x4, .i32⟩
  | .hbm, ⟨44, _⟩ => ⟨S8x400000x3, .f32⟩
  | .hbm, ⟨45, _⟩ => ⟨S8x400000, .i32⟩
  | .hbm, ⟨46, _⟩ => ⟨S3200000, .i32⟩
  | .local _ .vmem, ⟨0, _⟩ => ⟨S4x5000x4, .f32⟩
  | .local _ .vmem, ⟨1, _⟩ => ⟨S4x5000x4, .f32⟩
  | .local _ .vmem, ⟨2, _⟩ => ⟨S4x1x3, .f32⟩
  | .local _ .vmem, ⟨3, _⟩ => ⟨S4x1x3, .f32⟩
  | .local _ .vmem, ⟨4, _⟩ => ⟨S4x1x3, .f32⟩
  | .local _ .vmem, ⟨5, _⟩ => ⟨S4x1x3, .f32⟩
  | .local _ .vmem, ⟨6, _⟩ => ⟨S8x640x4, .f32⟩
  | .local _ .vmem, ⟨7, _⟩ => ⟨S8x640x4, .f32⟩
  | .local _ .vmem, ⟨8, _⟩ => ⟨S8x640x3, .f32⟩
  | .local _ .vmem, ⟨9, _⟩ => ⟨S8x640x3, .f32⟩
  | .local _ .vmem, ⟨10, _⟩ => ⟨S8x640, .i32⟩
  | .local _ .vmem, ⟨11, _⟩ => ⟨S8x640, .i32⟩
  | .local _ .vmem, ⟨12, _⟩ => ⟨S8x3, .f32⟩
  | .local _ .vmem, ⟨13, _⟩ => ⟨S8x3, .f32⟩
  | .local _ .vmem, ⟨14, _⟩ => ⟨S8x640x4, .i32⟩
  | .local _ .vmem, ⟨15, _⟩ => ⟨S8x640x4, .i32⟩
  | .local _ .vmem, ⟨16, _⟩ => ⟨S8x640x3, .f32⟩
  | .local _ .vmem, ⟨17, _⟩ => ⟨S8x640x3, .f32⟩
  | .local _ .vmem, ⟨18, _⟩ => ⟨S8x640, .i32⟩
  | .local _ .vmem, ⟨19, _⟩ => ⟨S8x640, .i32⟩
  | _, _ => ⟨S8x400000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![2, 80], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![625], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x640x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x640x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x640 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x640x4 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x640x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x640 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S4x5000x4_S4x5000x4_0_0_0 : ∀ a, (![0, 0, 0] : Fin 3 → Nat) a + S4x5000x4.size a ≤ S4x5000x4.size a
  h_S4x5000x4 : 0 < S4x5000x4.numel
  slices_S4x5000x4_o0_0_0_S4x5000x3 : S4x5000x4.Slices ![0, 0, 0] S4x5000x3
  reduces_S4x5000x3_S4x3 : S4x5000x3.Reduces [1] S4x3
  shapeCasts_S4x3_S4x1x3 : S4x3.ShapeCasts S4x1x3
  inb_S4x1x3_S4x1x3_0_0_0 : ∀ a, (![0, 0, 0] : Fin 3 → Nat) a + S4x1x3.size a ≤ S4x1x3.size a
  h_S4x1x3 : 0 < S4x1x3.numel
  shapeCasts_S4x1x3_S4x1x3 : S4x1x3.ShapeCasts S4x1x3
  shapeCasts_S8x1x3_S8x3 : S8x1x3.ShapeCasts S8x3
  bcast_S_S8x3 : S_.BroadcastsInDim S8x3 (![] : Fin 0 → Fin S8x3.rank)
  slices_S8x2x3_S8x1x3_0_0_0 : S8x2x3.Slices ![0, 0, 0] S8x1x3
  slices_S8x2x3_S8x1x3_0_1_0 : S8x2x3.Slices ![0, 1, 0] S8x1x3
  shapeCasts_S3200000_S8x400000 : S3200000.ShapeCasts S8x400000
  inb_S8x640x4_S8x640x4_0_0_0 : ∀ a, (![0, 0, 0] : Fin 3 → Nat) a + S8x640x4.size a ≤ S8x640x4.size a
  h_S8x640x4 : 0 < S8x640x4.numel
  slices_S8x640x4_o0_0_0_S8x640x3 : S8x640x4.Slices ![0, 0, 0] S8x640x3
  inb_S8x3_S8x3_0_0 : ∀ a, (![0, 0] : Fin 2 → Nat) a + S8x3.size a ≤ S8x3.size a
  h_S8x3 : 0 < S8x3.numel
  shapeCasts_S8x3_S8x3 : S8x3.ShapeCasts S8x3
  shapeCasts_S8x3_S8x1x3 : S8x3.ShapeCasts S8x1x3
  broadcasts_S8x1x3_S8x640x3 : S8x1x3.Broadcasts S8x640x3
  reduces_S8x640x3_S8x640 : S8x640x3.Reduces [2] S8x640
  inb_S8x640_S8x640_0_0 : ∀ a, (![0, 0] : Fin 2 → Nat) a + S8x640.size a ≤ S8x640.size a
  h_S8x640 : 0 < S8x640.numel
  shapeCasts_S8x640_S8x640 : S8x640.ShapeCasts S8x640
  natLt_1_32 : 1 < 32
  iota_S8x640x1_d0_w32 : S8x640x1.Iotas .tc 32 [0]
  concatenates_S8x640x3_S8x640x1_S8x640x4_d2 : Shape.Concatenates [S8x640x3, S8x640x1] S8x640x4 2
  shapeCasts_S8x640_S8x640x1 : S8x640.ShapeCasts S8x640x1
  broadcasts_S8x640x1_S8x640x4 : S8x640x1.Broadcasts S8x640x4
  inb_S8x640x3_S8x640x3_0_0_0 : ∀ a, (![0, 0, 0] : Fin 3 → Nat) a + S8x640x3.size a ≤ S8x640x3.size a
  h_S8x640x3 : 0 < S8x640x3.numel
  broadcasts_S8x640x1_S8x640x3 : S8x640x1.Broadcasts S8x640x3
  shapeCasts_S8x400000_S3200000 : S8x400000.ShapeCasts S3200000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x4.size a ≤ S8x400000x4.size a
  hwx0_0 : ∀ i : grid0.Coords, EltTy.bits .f32 = 32 ∨ (Rect.block (s := S8x400000x4) S4x5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x3.size a ≤ S8x1x3.size a
  hwx0_1 : ∀ i : grid0.Coords, EltTy.bits .f32 = 32 ∨ (Rect.block (s := S8x1x3) S4x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x3.size a ≤ S8x1x3.size a
  hwx0_2 : ∀ i : grid0.Coords, EltTy.bits .f32 = 32 ∨ (Rect.block (s := S8x1x3) S4x1x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x640x4.size a ≤ S8x400000x4.size a
  hwx1_0 : ∀ i : grid1.Coords, EltTy.bits .f32 = 32 ∨ (Rect.block (s := S8x400000x4) S8x640x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x640x3.size a ≤ S8x400000x3.size a
  hwx1_1 : ∀ i : grid1.Coords, EltTy.bits .f32 = 32 ∨ (Rect.block (s := S8x400000x3) S8x640x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x640.size a ≤ S8x400000.size a
  hwx1_2 : ∀ i : grid1.Coords, EltTy.bits .i32 = 32 ∨ (Rect.block (s := S8x400000) S8x640.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x3.size a ≤ S8x3.size a
  hwx1_3 : ∀ i : grid1.Coords, EltTy.bits .f32 = 32 ∨ (Rect.block (s := S8x3) S8x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x3.size a ≤ S8x3.size a
  hwx1_4 : ∀ i : grid1.Coords, EltTy.bits .f32 = 32 ∨ (Rect.block (s := S8x3) S8x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x640x4.size a ≤ S8x400000x4.size a
  hwx1_5 : ∀ i : grid1.Coords, EltTy.bits .i32 = 32 ∨ (Rect.block (s := S8x400000x4) S8x640x4.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x640x3.size a ≤ S8x400000x3.size a
  hwx1_6 : ∀ i : grid1.Coords, EltTy.bits .f32 = 32 ∨ (Rect.block (s := S8x400000x3) S8x640x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x640.size a ≤ S8x400000.size a
  hwx1_7 : ∀ i : grid1.Coords, EltTy.bits .i32 = 32 ∨ (Rect.block (s := S8x400000) S8x640.size (cc1_transform_7 i) (hinb1_7 i)).WholeWords (EltTy.packing .i32)

variable [Facts₀]

abbrev win0_0 : Pipeline.Window sig grid0 :=
  Pipeline.Window.ofSpec (Memref.whole main_arg0) S4x5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x1x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x640x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x640x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S8x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S8x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S8x640x4.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S8x640x3.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_2) S8x640.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S_ : Shape := ⟨0, ![]⟩
abbrev S8x1x3 : Shape := ⟨3, ![8, 1, 3]⟩
abbrev S8x400000 : Shape := ⟨2, ![8, 400000]⟩
abbrev S8 : Shape := ⟨1, ![8]⟩
abbrev S8x1x1 : Shape := ⟨3, ![8, 1, 1]⟩
abbrev S8x400000x1 : Shape := ⟨3, ![8, 400000, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x400000x4, .f32⟩
  | .hbm, ⟨1, _⟩ => ⟨S8x400000x3, .f32⟩
  | .hbm, ⟨2, _⟩ => ⟨S3200000, .i32⟩
  | .hbm, ⟨3, _⟩ => ⟨S8x2x3, .f32⟩
  | .hbm, ⟨4, _⟩ => ⟨S8x3, .f32⟩
  | .hbm, ⟨5, _⟩ => ⟨S8x400000x3, .f32⟩
  | .hbm, ⟨6, _⟩ => ⟨S_, .f32⟩
  | .hbm, ⟨7, _⟩ => ⟨S8x400000x3, .f32⟩
  | .hbm, ⟨8, _⟩ => ⟨S8x400000x3, .f32⟩
  | .hbm, ⟨9, _⟩ => ⟨S_, .f32⟩
  | .hbm, ⟨10, _⟩ => ⟨S8x3, .f32⟩
  | .hbm, ⟨11, _⟩ => ⟨S_, .f32⟩
  | .hbm, ⟨12, _⟩ => ⟨S8x3, .f32⟩
  | .hbm, ⟨13, _⟩ => ⟨S8x3, .f32⟩
  | .hbm, ⟨14, _⟩ => ⟨S_, .f32⟩
  | .hbm, ⟨15, _⟩ => ⟨S8x3, .f32⟩
  | .hbm, ⟨16, _⟩ => ⟨S8x3, .f32⟩
  | .hbm, ⟨17, _⟩ => ⟨S8x3, .f32⟩
  | .hbm, ⟨18, _⟩ => ⟨S_, .f32⟩
  | .hbm, ⟨19, _⟩ => ⟨S8x3, .f32⟩
  | .hbm, ⟨20, _⟩ => ⟨S8x3, .f32⟩
  | .hbm, ⟨21, _⟩ => ⟨S_, .f32⟩
  | .hbm, ⟨22, _⟩ => ⟨S_, .f32⟩
  | .hbm, ⟨23, _⟩ => ⟨S8x3, .f32⟩
  | .hbm, ⟨24, _⟩ => ⟨S8x3, .f32⟩
  | .hbm, ⟨25, _⟩ => ⟨S8x1x3, .f32⟩
  | .hbm, ⟨26, _⟩ => ⟨S8x3, .f32⟩
  | .hbm, ⟨27, _⟩ => ⟨S8x3, .f32⟩
  | .hbm, ⟨28, _⟩ => ⟨S8x3, .f32⟩
  | .hbm, ⟨29, _⟩ => ⟨S_, .f32⟩
  | .hbm, ⟨30, _⟩ => ⟨S8x3, .f32⟩
  | .hbm, ⟨31, _⟩ => ⟨S8x3, .f32⟩
  | .hbm, ⟨32, _⟩ => ⟨S_, .f32⟩
  | .hbm, ⟨33, _⟩ => ⟨S_, .f32⟩
  | .hbm, ⟨34, _⟩ => ⟨S8x3, .f32⟩
  | .hbm, ⟨35, _⟩ => ⟨S8x3, .f32⟩
  | .hbm, ⟨36, _⟩ => ⟨S8x1x3, .f32⟩
  | .hbm, ⟨37, _⟩ => ⟨S8x3, .f32⟩
  | .hbm, ⟨38, _⟩ => ⟨S8x3, .f32⟩
  | .hbm, ⟨39, _⟩ => ⟨S8x3, .f32⟩
  | .hbm, ⟨40, _⟩ => ⟨S8x1x3, .f32⟩
  | .hbm, ⟨41, _⟩ => ⟨S8x400000x3, .f32⟩
  | .hbm, ⟨42, _⟩ => ⟨S8x400000x3, .f32⟩
  | .hbm, ⟨43, _⟩ => ⟨S_, .f32⟩
  | .hbm, ⟨44, _⟩ => ⟨S8x400000, .f32⟩
  | .hbm, ⟨45, _⟩ => ⟨S_, .f32⟩
  | .hbm, ⟨46, _⟩ => ⟨S8x400000, .f32⟩
  | .hbm, ⟨47, _⟩ => ⟨S8x400000, .i1⟩
  | .hbm, ⟨48, _⟩ => ⟨S_, .f32⟩
  | .hbm, ⟨49, _⟩ => ⟨S8x400000, .f32⟩
  | .hbm, ⟨50, _⟩ => ⟨S_, .f32⟩
  | .hbm, ⟨51, _⟩ => ⟨S8x400000, .f32⟩
  | .hbm, ⟨52, _⟩ => ⟨S8x400000, .i1⟩
  | .hbm, ⟨53, _⟩ => ⟨S8x400000, .i1⟩
  | .hbm, ⟨54, _⟩ => ⟨S8x400000, .i32⟩
  | .hbm, ⟨55, _⟩ => ⟨S_, .i32⟩
  | .hbm, ⟨56, _⟩ => ⟨S8x400000, .i32⟩
  | .hbm, ⟨57, _⟩ => ⟨S8x400000, .i1⟩
  | .hbm, ⟨58, _⟩ => ⟨S8x400000, .i1⟩
  | .hbm, ⟨59, _⟩ => ⟨S8x400000x3, .i32⟩
  | .hbm, ⟨60, _⟩ => ⟨S8, .i32⟩
  | .hbm, ⟨61, _⟩ => ⟨S8x1x1, .i32⟩
  | .hbm, ⟨62, _⟩ => ⟨S8x400000x1, .i32⟩
  | .hbm, ⟨63, _⟩ => ⟨S8x400000x4, .i32⟩
  | .hbm, ⟨64, _⟩ => ⟨S8x400000x1, .i1⟩
  | .hbm, ⟨65, _⟩ => ⟨S8x400000x1, .i32⟩
  | .hbm, ⟨66, _⟩ => ⟨S8x400000x4, .i32⟩
  | .hbm, ⟨67, _⟩ => ⟨S8x400000x4, .i32⟩
  | .hbm, ⟨68, _⟩ => ⟨S8x1x3, .f32⟩
  | .hbm, ⟨69, _⟩ => ⟨S8x400000x3, .f32⟩
  | .hbm, ⟨70, _⟩ => ⟨S8x400000x3, .f32⟩
  | .hbm, ⟨71, _⟩ => ⟨S8x400000x1, .i1⟩
  | .hbm, ⟨72, _⟩ => ⟨S8x400000x1, .f32⟩
  | .hbm, ⟨73, _⟩ => ⟨S8x400000x3, .f32⟩
  | .hbm, ⟨74, _⟩ => ⟨S8x400000x3, .f32⟩
  | .hbm, ⟨75, _⟩ => ⟨S3200000, .i1⟩
  | .hbm, ⟨76, _⟩ => ⟨S3200000, .i32⟩
  | .hbm, ⟨77, _⟩ => ⟨S3200000, .i32⟩
  | _, _ => ⟨S8x400000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S8x400000x4_S8x400000x3_0_0_0 : S8x400000x4.Slices ![0, 0, 0] S8x400000x3
  bcast_S_S8x400000x3 : S_.BroadcastsInDim S8x400000x3 (![] : Fin 0 → Fin S8x400000x3.rank)
  reducesTo_S8x400000x3_S8x3_d1 : S8x400000x3.ReducesTo [1] S8x3
  h_S_ : 0 < S_.numel
  bcast_S_S8x3 : S_.BroadcastsInDim S8x3 (![] : Fin 0 → Fin S8x3.rank)
  slices_S8x2x3_S8x1x3_0_0_0 : S8x2x3.Slices ![0, 0, 0] S8x1x3
  shapeCasts_S8x1x3_S8x3 : S8x1x3.ShapeCasts S8x3
  slices_S8x2x3_S8x1x3_0_1_0 : S8x2x3.Slices ![0, 1, 0] S8x1x3
  bcast_S8x3_S8x1x3_0_2 : S8x3.BroadcastsInDim S8x1x3 (![0, 2] : Fin 2 → Fin S8x1x3.rank)
  bcast_S8x1x3_S8x400000x3_0_1_2 : S8x1x3.BroadcastsInDim S8x400000x3 (![0, 1, 2] : Fin 3 → Fin S8x400000x3.rank)
  reducesTo_S8x400000x3_S8x400000_d2 : S8x400000x3.ReducesTo [2] S8x400000
  bcast_S_S8x400000 : S_.BroadcastsInDim S8x400000 (![] : Fin 0 → Fin S8x400000.rank)
  shapeCasts_S3200000_S8x400000 : S3200000.ShapeCasts S8x400000
  bcast_S8_S8x1x1_0 : S8.BroadcastsInDim S8x1x1 (![0] : Fin 1 → Fin S8x1x1.rank)
  bcast_S8x1x1_S8x400000x1_0_1_2 : S8x1x1.BroadcastsInDim S8x400000x1 (![0, 1, 2] : Fin 3 → Fin S8x400000x1.rank)
  concatenates_S8x400000x3_S8x400000x1_S8x400000x4_d2 : Shape.Concatenates [S8x400000x3, S8x400000x1] S8x400000x4 2
  bcast_S8x400000_S8x400000x1_0_1 : S8x400000.BroadcastsInDim S8x400000x1 (![0, 1] : Fin 2 → Fin S8x400000x1.rank)
  natLt_1_32 : 1 < 32
  bcast_S8x400000x1_S8x400000x4_0_1_2 : S8x400000x1.BroadcastsInDim S8x400000x4 (![0, 1, 2] : Fin 3 → Fin S8x400000x4.rank)
  bcast_S8x400000x1_S8x400000x3_0_1_2 : S8x400000x1.BroadcastsInDim S8x400000x3 (![0, 1, 2] : Fin 3 → Fin S8x400000x3.rank)
  shapeCasts_S8x400000_S3200000 : S8x400000.ShapeCasts S3200000

variable [Facts₀]

class Facts : Prop extends Facts₀ where

variable [Facts]
-- ==== Proof.Spec.lean ====
/-
  The specification: what the program computes, as functions of its five argument arrays
  (points [8, 400000, 4], features [8, 400000, 3], the mask as an [8, 400000] array, the random factors [8, 2, 3], the noise [8, 3]).

  Per sample b and channel ch < 3 let m(b,ch) and M(b,ch) be the minimum and the maximum over the 400000 points n of
  20·points(b,n,ch), both taken from the infinities (`scaledMin`, `scaledMax`; `rawMin`, `rawMax` are the same extremes of the
  unscaled points). The OFFSET is one function of the two [8,3] arrays of extremes and of the random factors (`offsetFn`):
      room = 4096 − (M − m),   offset = −m + max(0, room − ε)·u₀ + min(0, room + ε)·u₁,     ε the binary32 word nearest 0.001.
  Given ANY offset array, the shifted coordinate of point (b,n) on channel ch is 20·points(b,n,ch) + offset(b,ch) (`coord`);
  the point is VALID (`valid`, one bit) when the least of its three coordinates is ≥ 0, the greatest is < 4096, and its mask word
  is positive; and the three pointwise results are
      locs(b,n,·)   = (the three coordinates cast to integers, then the sample number b) · valid,
      feats(b,n,ch) = (features(b,n,ch) + noise(b,ch)) · valid,
      newMask(b,n)  = mask(b,n) · valid.
  Everything is stated at the ideal instance, where a float is an extended real; the literals stay as their words.
-/
import Idealize.ShloMosaic.PureOps.Ideal
import Idealize.ShloMosaic.Lib.ValueIdx

noncomputable section

namespace Cert.Spec

open Idealize.ShloMosaic Idealize.ShloMosaic.ValueIdx

/-! ## Shapes -/

abbrev S0 : Shape := ⟨0, ![]⟩
abbrev SOff : Shape := ⟨2, ![8, 3]⟩
abbrev SOff1 : Shape := ⟨3, ![8, 1, 3]⟩
abbrev SRnd : Shape := ⟨3, ![8, 2, 3]⟩
abbrev SPts : Shape := ⟨3, ![8, 400000, 4]⟩
abbrev SFea : Shape := ⟨3, ![8, 400000, 3]⟩
abbrev SMsk : Shape := ⟨2, ![8, 400000]⟩

/-- A coordinate channel (0, 1, 2) as a channel of the 4-wide points array. -/
abbrev ch4 (ch : Fin 3) : Fin 4 := ⟨ch.val, Nat.lt_of_lt_of_le ch.isLt (by decide)⟩

/-! ## The extremes over a sample's points -/

/-- The least of points(b,·,ch) over the 400000 points, from +∞. -/
def rawMin (pts : FVec Ideal SPts .f32) (b : Fin 8) (ch : Fin 3) : EReal :=
  (Finset.univ : Finset (Fin 400000)).fold min (Ideal.ofBits .f32 0x7F800000#32) (fun n => pts (ix3 b n (ch4 ch)))

/-- The greatest of points(b,·,ch) over the 400000 points, from −∞. -/
def rawMax (pts : FVec Ideal SPts .f32) (b : Fin 8) (ch : Fin 3) : EReal :=
  (Finset.univ : Finset (Fin 400000)).fold max (Ideal.ofBits .f32 0xFF800000#32) (fun n => pts (ix3 b n (ch4 ch)))

/-- The least of 20·points(b,·,ch), from +∞. -/
def scaledMin (pts : FVec Ideal SPts .f32) (b : Fin 8) (ch : Fin 3) : EReal :=
  (Finset.univ : Finset (Fin 400000)).fold min (Ideal.ofBits .f32 0x7F800000#32)
    (fun n => Ideal.ofBits .f32 0x41A00000#32 * pts (ix3 b n (ch4 ch)))

/-- The greatest of 20·points(b,·,ch), from −∞. -/
def scaledMax (pts : FVec Ideal SPts .f32) (b : Fin 8) (ch : Fin 3) : EReal :=
  (Finset.univ : Finset (Fin 400000)).fold max (Ideal.ofBits .f32 0xFF800000#32)
    (fun n => Ideal.ofBits .f32 0x41A00000#32 * pts (ix3 b n (ch4 ch)))

/-! ## The offset, as one function of the two arrays of extremes and the random factors -/

/-- offset = −m + max(0, room − ε)·u₀ + min(0, room + ε)·u₁ with room = 4096 − (M − m), as whole [8,3] arrays: the slack of
    each axis is spent at random, to either side. (The shape facts are hypotheses: any witnesses give the same function.) -/
def offsetFn (hb : S0.BroadcastsInDim SOff (![] : Fin 0 → Fin SOff.rank)) (hs0 : SRnd.Slices ![0, 0, 0] SOff1)
    (hs1 : SRnd.Slices ![0, 1, 0] SOff1) (hc : SOff1.ShapeCasts SOff)
    (mn mx : FVec Ideal SOff .f32) (u : FVec Ideal SRnd .f32) : FVec Ideal SOff .f32 :=
  addf
    (addf (Host.negf mn)
      (mulf
        (maximumf (broadcastInDim SOff ![] hb (id (constant S0 .f32 0x00000000#32)))
          (subf (subf (broadcastInDim SOff ![] hb (constant S0 .f32 0x45800000#32)) (subf mx mn))
            (broadcastInDim SOff ![] hb (constant S0 .f32 0x3A83126F#32))))
        (shapeCast SOff (extractStridedSlice SOff1 ![0, 0, 0] u hs0) hc)))
    (mulf
      (minimumf (broadcastInDim SOff ![] hb (id (constant S0 .f32 0x00000000#32)))
        (addf (subf (broadcastInDim SOff ![] hb (constant S0 .f32 0x45800000#32)) (subf mx mn))
          (broadcastInDim SOff ![] hb (constant S0 .f32 0x3A83126F#32))))
      (shapeCast SOff (extractStridedSlice SOff1 ![0, 1, 0] u hs1) hc))

/-! ## The pointwise transform, for any offset array -/

/-- The shifted coordinate 20·points(b,n,ch) + offset(b,ch). -/
def coord (pts : FVec Ideal SPts .f32) (off : FVec Ideal SOff .f32) (b : Fin 8) (n : Fin 400000) (ch : Fin 3) : EReal :=
  Ideal.ofBits .f32 0x41A00000#32 * pts (ix3 b n (ch4 ch)) + off (ix2 b ch)

/-- The least of a point's three shifted coordinates, from +∞. -/
def rowMin (pts : FVec Ideal SPts .f32) (off : FVec Ideal SOff .f32) (b : Fin 8) (n : Fin 400000) : EReal :=
  (Finset.univ : Finset (Fin 3)).fold min (Ideal.ofBits .f32 0x7F800000#32) (fun ch => coord pts off b n ch)

/-- The greatest of a point's three shifted coordinates, from −∞. -/
def rowMax (pts : FVec Ideal SPts .f32) (off : FVec Ideal SOff .f32) (b : Fin 8) (n : Fin 400000) : EReal :=
  (Finset.univ : Finset (Fin 3)).fold max (Ideal.ofBits .f32 0xFF800000#32) (fun ch => coord pts off b n ch)

/-- The point is kept: every coordinate in [0, 4096) and a positive mask word. One bit. -/
def valid (pts : FVec Ideal SPts .f32) (off : FVec Ideal SOff .f32) (msk : IVec SMsk 32) (b : Fin 8) (n : Fin 400000) : BitVec 1 :=
  IntOp.andi
    (IntOp.andi
      (FloatOps.cmpf (F := Ideal) (φ := .f32) .oge (rowMin pts off b n) (Ideal.ofBits .f32 0x00000000#32))
      (FloatOps.cmpf (F := Ideal) (φ := .f32) .olt (rowMax pts off b n) (Ideal.ofBits .f32 0x45800000#32)))
    (IntOp.cmpi .sgt (msk (ix2 b n)) 0#32)

/-- The integer location: the three coordinates truncated to integers, then the sample number, each times the valid bit. -/
def locs (pts : FVec Ideal SPts .f32) (off : FVec Ideal SOff .f32) (msk : IVec SMsk 32) (b : Fin 8) (n : Fin 400000) (ch : Fin 4) :
    BitVec 32 :=
  IntOp.muli
    (if h : ch.val < 3 then FloatOps.fptosi (F := Ideal) (φ := .f32) 32 (coord pts off b n ⟨ch.val, h⟩) else BitVec.ofNat 32 b.val)
    ((valid pts off msk b n).setWidth 32)

/-- The features, shifted by the sample's noise, times the valid bit read as 0 or 1. -/
def feats (pts : FVec Ideal SPts .f32) (off : FVec Ideal SOff .f32) (msk : IVec SMsk 32) (fea : FVec Ideal SFea .f32)
    (noise : FVec Ideal SOff .f32) (b : Fin 8) (n : Fin 400000) (ch : Fin 3) : EReal :=
  (fea (ix3 b n ch) + noise (ix2 b ch)) * FloatOps.uitofp (F := Ideal) .f32 (valid pts off msk b n)

/-- The new mask word: the old one times the valid bit. -/
def newMask (pts : FVec Ideal SPts .f32) (off : FVec Ideal SOff .f32) (msk : IVec SMsk 32) (b : Fin 8) (n : Fin 400000) : BitVec 32 :=
  IntOp.muli (msk (ix2 b n)) ((valid pts off msk b n).setWidth 32)

end Cert.Spec

end
-- ==== Proof.Results.lean ====
/-
  The program's four results as whole arrays of its five arguments, in the specification's terms: the offset [8, 3] of the points
  and the random factors; the location array [8, 400000, 4], the feature array [8, 400000, 3] and the flat new mask [3200000],
  each read point by point off the specification with that offset and the [8, 400000] view of the mask words. Both programs' runs
  are brought to these same four terms, which is what makes their results equal.
-/
import proofs.«168431_j2327872274833_2_alg».proof.Proof.Gen.KernelIdeal
import proofs.«168431_j2327872274833_2_alg».proof.Proof.Spec
import Idealize.ShloMosaic.Lib.ValueIdx

set_option maxRecDepth 16384

noncomputable section

open Idealize.ShloMosaic Idealize.ShloMosaic.TcCoe Idealize.SL.Sem Idealize.ShloMosaic.ValueIdx

/-! ## The four results as whole arrays of the five arguments -/

namespace Cert.Bridge

open Cert.KernelIdeal Cert.KernelIdeal.Facts₀ Cert.KernelIdeal.Facts

/-- The offset of the launched points and random factors: `offsetFn` of the scaled extremes. -/
def offsetOf (pts : FVec Ideal Cert.Spec.SPts .f32) (u : FVec Ideal Cert.Spec.SRnd .f32) : FVec Ideal Cert.Spec.SOff .f32 :=
  Cert.Spec.offsetFn bcast_S_S8x3 slices_S8x2x3_S8x1x3_0_0_0 slices_S8x2x3_S8x1x3_0_1_0 shapeCasts_S8x1x3_S8x3
    (fun j => Cert.Spec.scaledMin pts (j 0) (j 1)) (fun j => Cert.Spec.scaledMax pts (j 0) (j 1)) u

/-- The mask words as an [8, 400000] array. -/
def maskOf (w : IVec S3200000 32) : IVec Cert.Spec.SMsk 32 := shapeCast S8x400000 w shapeCasts_S3200000_S8x400000

/-- The location array. -/
def locsOf (pts : FVec Ideal Cert.Spec.SPts .f32) (u : FVec Ideal Cert.Spec.SRnd .f32) (w : IVec S3200000 32) : IVec Cert.Spec.SPts 32 :=
  fun i => Cert.Spec.locs pts (offsetOf pts u) (maskOf w) (i 0) (i 1) (i 2)

/-- The feature array. -/
def featsOf (pts : FVec Ideal Cert.Spec.SPts .f32) (u : FVec Ideal Cert.Spec.SRnd .f32) (w : IVec S3200000 32)
    (fea : FVec Ideal Cert.Spec.SFea .f32) (noise : FVec Ideal Cert.Spec.SOff .f32) : FVec Ideal Cert.Spec.SFea .f32 :=
  fun i => Cert.Spec.feats pts (offsetOf pts u) (maskOf w) fea noise (i 0) (i 1) (i 2)

/-- The new mask, flat again. -/
def newMaskOf (pts : FVec Ideal Cert.Spec.SPts .f32) (u : FVec Ideal Cert.Spec.SRnd .f32) (w : IVec S3200000 32) : IVec S3200000 32 :=
  shapeCast S3200000 (fun j : S8x400000.Idx => Cert.Spec.newMask pts (offsetOf pts u) (maskOf w) (j 0) (j 1)) shapeCasts_S8x400000_S3200000

end Cert.Bridge

end
-- ==== Proof.KernelRun.lean ====
/-
  The idealized kernel's run with its results NAMED.

  The program is two grid regions among stretches of whole-array operations. Its run is the chain of those eight segments; the
  contents of every buffer at each segment boundary are a fold from the launch memory (a stretch applies its operations, a region
  replaces its output arrays by what its write-backs leave). After the last segment every buffer holds the last boundary's
  contents, so each of the four result buffers can be read there, beside the five argument buffers, which no segment writes.

  Then each result is walked back through the fold: the location and feature arrays are region 1's output arrays; the new mask is
  the flattening of region 1's third output; the offset is the chain of operations between the regions applied to region 0's two
  output arrays (the per-sample extremes) and to the random factors.
-/
import proofs.«168431_j2327872274833_2_alg».proof.Proof.Gen.KernelIdeal.Frame
import proofs.«168431_j2327872274833_2_alg».proof.Proof.Spec
import Idealize.ShloMosaic.Lib.StableHlo.Run
import Idealize.ShloMosaic.Lib.Pipeline.Value

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each of the four result buffers at the last
    boundary's contents and the five argument buffers as launched. -/
theorem run_last : θ_run defs (onTc (τ := τ) (main (F := F))) ⟨m, fun _ => 0, ρ⟩ (fun r => ∀ c : Dev nD,
      r.2.mem ((c.tc : Thread nD τ).loc main_v26_0) = W8 m ρ c (Proc.devRef .tc main_v26_0)
      ∧ r.2.mem ((c.tc : Thread nD τ).loc main_v26_1) = W8 m ρ c (Proc.devRef .tc main_v26_1)
      ∧ r.2.mem ((c.tc : Thread nD τ).loc main_v27) = W8 m ρ c (Proc.devRef .tc main_v27)
      ∧ r.2.mem ((c.tc : Thread nD τ).loc main_v24) = W8 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v26_0 (by decide)),
       h c _ (mem_uc main_v26_1 (by decide)),
       h c _ (mem_uc main_v27 (by decide)),
       h c _ (mem_uc main_v24 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

/-! ## The last boundary's contents at the three results region 1 writes

The only operation after region 1 flattens its third output; it writes neither of the other two. -/

/-- The location result is region 1's first output array as its write-backs leave it. -/
theorem last_locs (c : Dev nD) : W8 m ρ c (Proc.devRef .tc main_v26_0) = (dat1 (V6 m ρ) c).arrAt 5 cfg1.N := by
  show StableHlo.after hostOps2 (W7 m ρ c) (Proc.devRef .tc main_v26_0) = _
  after_results
  exact W7_arr m ρ c 5

/-- The feature result is region 1's second output array. -/
theorem last_feats (c : Dev nD) : W8 m ρ c (Proc.devRef .tc main_v26_1) = (dat1 (V6 m ρ) c).arrAt 6 cfg1.N := by
  show StableHlo.after hostOps2 (W7 m ρ c) (Proc.devRef .tc main_v26_1) = _
  after_results
  exact W7_arr m ρ c 6

/-- The new-mask result is the flattening of region 1's third output array. -/
theorem last_mask (c : Dev nD) : W8 m ρ c (Proc.devRef .tc main_v27)
    = shapeCast S3200000 ((dat1 (V6 m ρ) c).arrAt 7 cfg1.N) shapeCasts_S8x400000_S3200000 := by
  show StableHlo.after hostOps2 (W7 m ρ c) (Proc.devRef .tc main_v27) = _
  after_results
  show shapeCast S3200000 (W7 m ρ c (Proc.devRef .tc main_v26_2)) shapeCasts_S8x400000_S3200000 = _
  exact congrArg (fun a => shapeCast S3200000 a shapeCasts_S8x400000_S3200000) (W7_arr m ρ c 7)

/-! ## What region 1 is entered with

Between the regions the program computes the offset from region 0's two output arrays and views the flat mask words as an
[8, 400000] array; it writes no argument, and region 0 only reads the points. -/

/-- Region 0's exit contents at a buffer that is none of its three arrays are the launch contents. -/
theorem W1_launch (c : Dev nD) (b : Ref sig .tc) (hb : ∀ w, Pipeline.arrRef spec0 w ≠ b) :
    W1 m ρ c (Proc.devRef .tc b) = m ((c : Thread nD τ).loc b) :=
  (W1_of_ne m ρ c b hb).trans rfl

/-- Region 0 leaves the points array as launched (it is an input window's array). -/
theorem W1_points (c : Dev nD) : W1 m ρ c (Proc.devRef .tc main_arg0) = m ((c : Thread nD τ).loc main_arg0) :=
  (W1_arr m ρ c 0).trans ((((dat0 (V0 m ρ) c).arrAt_in 0 rfl _).trans (A_eq0 (V0 m ρ) c 0)).trans rfl)

/-- Region 1 is entered with the points array as launched. -/
theorem entry_points (c : Dev nD) : V6 m ρ c main_arg0 = m ((c : Thread nD τ).loc main_arg0) := by
  show StableHlo.after hostOps1_4 (StableHlo.after hostOps1_3 (StableHlo.after hostOps1_2 (StableHlo.after hostOps1_1
    (StableHlo.after hostOps1 (W1 m ρ c))))) (Proc.devRef .tc main_arg0) = _
  after_results
  exact W1_points m ρ c

/-- Region 1 is entered with the features array as launched. -/
theorem entry_feas (c : Dev nD) : V6 m ρ c main_arg1 = m ((c : Thread nD τ).loc main_arg1) := by
  show StableHlo.after hostOps1_4 (StableHlo.after hostOps1_3 (StableHlo.after hostOps1_2 (StableHlo.after hostOps1_1
    (StableHlo.after hostOps1 (W1 m ρ c))))) (Proc.devRef .tc main_arg1) = _
  after_results
  exact W1_launch m ρ c main_arg1 (fun w => by fin_cases w <;> decide)

/-- Region 1 is entered with the noise array as launched. -/
theorem entry_noise (c : Dev nD) : V6 m ρ c main_arg4 = m ((c : Thread nD τ).loc main_arg4) := by
  show StableHlo.after hostOps1_4 (StableHlo.after hostOps1_3 (StableHlo.after hostOps1_2 (StableHlo.after hostOps1_1
    (StableHlo.after hostOps1 (W1 m ρ c))))) (Proc.devRef .tc main_arg4) = _
  after_results
  exact W1_launch m ρ c main_arg4 (fun w => by fin_cases w <;> decide)

/-- Region 1 is entered with the mask array at the [8, 400000] view of the launched flat mask words. -/
theorem entry_mask (c : Dev nD) : V6 m ρ c main_v25
    = shapeCast S8x400000 (m ((c : Thread nD τ).loc main_arg2)) shapeCasts_S3200000_S8x400000 := by
  show StableHlo.after hostOps1_4 (StableHlo.after hostOps1_3 (StableHlo.after hostOps1_2 (StableHlo.after hostOps1_1
    (StableHlo.after hostOps1 (W1 m ρ c))))) (Proc.devRef .tc main_v25) = _
  after_results
  show shapeCast S8x400000 (W1 m ρ c (Proc.devRef .tc main_arg2)) shapeCasts_S3200000_S8x400000 = _
  exact congrArg (fun a => shapeCast S8x400000 a shapeCasts_S3200000_S8x400000)
    (W1_launch m ρ c main_arg2 (fun w => by fin_cases w <;> decide))

/-! ## The offset region 1 is entered with

The operations between the regions view each of region 0's [8, 1, 3] output arrays as [8, 3], multiply it by the broadcast 20, and
apply to the two products and the random factors the chain the specification calls `offsetFn`. -/

/-- An [8, 1, 3] array of raw extremes viewed [8, 3] and multiplied by 20. -/
abbrev scaled (a : FVec Ideal S8x1x3 .f32) : FVec Ideal S8x3 .f32 :=
  mulf (broadcastInDim S8x3 ![] bcast_S_S8x3 (constant S_ .f32 0x41A00000#32)) (shapeCast S8x3 a shapeCasts_S8x1x3_S8x3)

set_option maxHeartbeats 4000000 in
/-- At the ideal instance region 1 is entered with the offset array at `offsetFn` of 20·(region 0's minimum array),
    20·(region 0's maximum array) and the launched random factors. -/
theorem entry_offset (mI : (ℓ : Loc nD τ sig) → Buf (Elt Ideal) ℓ) (c : Dev nD) :
    V6 mI ρ c main_v24
      = Cert.Spec.offsetFn bcast_S_S8x3 slices_S8x2x3_S8x1x3_0_0_0 slices_S8x2x3_S8x1x3_0_1_0 shapeCasts_S8x1x3_S8x3
          (scaled ((dat0 (V0 mI ρ) c).arrAt 1 cfg0.N)) (scaled ((dat0 (V0 mI ρ) c).arrAt 2 cfg0.N))
          (mI ((c : Thread nD τ).loc main_arg3)) := by
  have e1 : W1 mI ρ c (Proc.devRef .tc main_v0_0) = (dat0 (V0 mI ρ) c).arrAt 1 cfg0.N := W1_arr mI ρ c 1
  have e2 : W1 mI ρ c (Proc.devRef .tc main_v0_1) = (dat0 (V0 mI ρ) c).arrAt 2 cfg0.N := W1_arr mI ρ c 2
  have e3 : W1 mI ρ c (Proc.devRef .tc main_arg3) = mI ((c : Thread nD τ).loc main_arg3) :=
    W1_launch mI ρ c main_arg3 (fun w => by fin_cases w <;> decide)
  show StableHlo.after hostOps1_4 (StableHlo.after hostOps1_3 (StableHlo.after hostOps1_2 (StableHlo.after hostOps1_1
    (StableHlo.after hostOps1 (W1 mI ρ c))))) (Proc.devRef .tc main_v24) = _
  after_results_simp
  rw [e1, e2, e3]
  rfl

end Cert.KernelIdeal.RunValue

end
-- ==== Proof.Laws.lean ====
/-
  The one algebraic law between the two programs, and the three float words it needs as extended reals.

  One program takes the least (greatest) of a sample's raw coordinates and multiplies the result by 20; the other multiplies
  every coordinate by 20 and then takes the least (greatest). On the extended reals multiplication by a positive real c is
  monotone and sends +∞ to +∞ and −∞ to −∞, so it commutes with min, with max, and hence with a fold of either that starts from the
  matching infinity: min over n of c·xₙ = c · (min over n of xₙ), whatever the xₙ — finite or not.

  The words: 0x41A00000 denotes 20, 0x7F800000 denotes +∞, 0xFF800000 denotes −∞. Only these three values are ever needed.
-/
import Mathlib.Data.EReal.Inv
import Mathlib.Data.Finset.Fold
import Idealize.ShloMosaic.PureOps.Ideal
import proofs.«168431_j2327872274833_2_alg».proof.Proof.Spec

noncomputable section

namespace Cert.Laws

open Idealize.ShloMosaic Idealize.ShloMosaic.ValueIdx

/-! ## The words -/

/-- The word of 20.0 denotes the real 20. -/
theorem ofBits_twenty : Ideal.ofBits .f32 0x41A00000#32 = ((20 : ℝ) : EReal) := by
  simp [Ideal.ofBits, Ideal.ieee, -EReal.coe_mul]; norm_num

/-- The word of +∞ denotes the top of the extended reals. -/
theorem ofBits_posInf : Ideal.ofBits .f32 0x7F800000#32 = (⊤ : EReal) := by
  simp [Ideal.ofBits, Ideal.ieee]

/-- The word of −∞ denotes the bottom of the extended reals. -/
theorem ofBits_negInf : Ideal.ofBits .f32 0xFF800000#32 = (⊥ : EReal) := by
  simp [Ideal.ofBits, Ideal.ieee]

/-! ## Multiplication by a positive real commutes with min, max and their folds -/

/-- x ↦ c·x is monotone on the extended reals for a real c > 0. -/
theorem mul_pos_mono (c : ℝ) (hc : 0 < c) : Monotone (fun x : EReal => (c : EReal) * x) :=
  fun _ _ h => mul_le_mul_of_nonneg_left h (EReal.coe_nonneg.2 hc.le)

theorem mul_min (c : ℝ) (hc : 0 < c) (x y : EReal) : (c : EReal) * min x y = min ((c : EReal) * x) ((c : EReal) * y) :=
  (mul_pos_mono c hc).map_min

theorem mul_max (c : ℝ) (hc : 0 < c) (x y : EReal) : (c : EReal) * max x y = max ((c : EReal) * x) ((c : EReal) * y) :=
  (mul_pos_mono c hc).map_max

/-- The least of the c·xₖ, from +∞, is c times the least of the xₖ, from +∞ (c·(+∞) = +∞). -/
theorem scale_fold_min {ι : Type} (s : Finset ι) (c : ℝ) (hc : 0 < c) (f : ι → EReal) :
    s.fold min (⊤ : EReal) (fun k => (c : EReal) * f k) = (c : EReal) * s.fold min (⊤ : EReal) f := by
  have h : s.fold min ((c : EReal) * ⊤) (fun k => (c : EReal) * f k) = (c : EReal) * s.fold min (⊤ : EReal) f :=
    Finset.fold_hom (op := min) (op' := min) (m := fun x : EReal => (c : EReal) * x) (mul_min c hc)
  rwa [EReal.coe_mul_top_of_pos hc] at h

/-- The greatest of the c·xₖ, from −∞, is c times the greatest of the xₖ, from −∞ (c·(−∞) = −∞). -/
theorem scale_fold_max {ι : Type} (s : Finset ι) (c : ℝ) (hc : 0 < c) (f : ι → EReal) :
    s.fold max (⊥ : EReal) (fun k => (c : EReal) * f k) = (c : EReal) * s.fold max (⊥ : EReal) f := by
  have h : s.fold max ((c : EReal) * ⊥) (fun k => (c : EReal) * f k) = (c : EReal) * s.fold max (⊥ : EReal) f :=
    Finset.fold_hom (op := max) (op' := max) (m := fun x : EReal => (c : EReal) * x) (mul_max c hc)
  rwa [EReal.coe_mul_bot_of_pos hc] at h

/-! ## The law, on the specification's extremes -/

/-- Scaling the points by 20 and then taking a sample's least coordinate is taking it and then scaling. -/
theorem scaledMin_eq (pts : FVec Ideal Cert.Spec.SPts .f32) (b : Fin 8) (ch : Fin 3) :
    Cert.Spec.scaledMin pts b ch = Ideal.ofBits .f32 0x41A00000#32 * Cert.Spec.rawMin pts b ch := by
  unfold Cert.Spec.scaledMin Cert.Spec.rawMin
  rw [ofBits_twenty, ofBits_posInf]
  exact scale_fold_min _ 20 (by norm_num) _

/-- The same for the greatest coordinate. -/
theorem scaledMax_eq (pts : FVec Ideal Cert.Spec.SPts .f32) (b : Fin 8) (ch : Fin 3) :
    Cert.Spec.scaledMax pts b ch = Ideal.ofBits .f32 0x41A00000#32 * Cert.Spec.rawMax pts b ch := by
  unfold Cert.Spec.scaledMax Cert.Spec.rawMax
  rw [ofBits_twenty, ofBits_negInf]
  exact scale_fold_max _ 20 (by norm_num) _

end Cert.Laws

end
-- ==== Proof.LibMinReduce.lean ====
/-
  A float `vector.multi_reduction <minimumf>` over ONE axis, read at the ideal values: at each reduced index it is the
  fold of `min`, from the accumulator's value, over that axis's coordinates of the source (the reduced index with the
  coordinate inserted, `Shape.Reduces.lift`). This is the `<minimumf>` companion of the library's
  `Ideal.multiReduction_maximumf_single`, for any shapes, axis and float format.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's or a column's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Region0.lean ====
/-
  The first region's two result arrays. Each of the two halves of the batch (four samples) is swept in 80 steps of 5000
  points. A step takes the column extremes of its [4, 5000, 3] block of the first three channels — the least and the
  greatest of the 5000 entries of each sample and channel — and folds them into two running [4, 1, 3] blocks, which the
  first step of a half starts from +∞ and −∞. After the last step of a half the running blocks are the half's rows of the
  two [8, 1, 3] arrays. So entry (b, 0, ch) of the first array is the least, and of the second the greatest, of
  points(b, n, ch) over all 400000 points n, each taken from its infinity.

  A minimum is carried by its universal property, never as a closed form: z lies below the running minimum after step j of
  a half exactly when z lies below +∞ and below every point entry of the 5000·(j+1) points seen so far. At j = 79 these are
  all the points, and the same property characterises the fold of min over all of them. The maximum is the mirror image:
  the running maximum lies below z exactly when −∞ and every point entry seen so far do.
-/
import proofs.«168431_j2327872274833_2_alg».proof.Proof.Gen.KernelIdeal.Frame
import proofs.«168431_j2327872274833_2_alg».proof.Proof.Spec
import proofs.«168431_j2327872274833_2_alg».proof.Proof.LibMinReduce
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/-! ## What one step leaves in the two running blocks

At the first step of a half the blocks are first set to +∞ and −∞ and then combined with the step's column extremes; at
every other step the blocks carried from the step before are combined with them. Each block is written whole, so what a
step leaves is the value of its last store. -/

section Pieces
variable {F : FTy → Type} [FloatOps F]

theorem hz3 : (![0, 0, 0] : Fin 3 → Nat) = fun _ => 0 := funext fun a => by fin_cases a <;> rfl

/-- First step of a half, running minimum: the column minima combined with the all-(+∞) block. -/
theorem out_A_1 (c : Dev nD) (i : grid0.Coords) (a2 : Memref sig .tc .vmem S4x5000x4 .f32) (h2 : a2.IsWhole)
    (a3 : Memref sig .tc .vmem S4x1x3 .f32) (h3 : a3.IsWhole) (a4 : Memref sig .tc .vmem S4x1x3 .f32) (h4 : a4.IsWhole)
    (hc : cond0_0 i) (x : Vec F S4x5000x4 .f32) :
    out0_A_1 c i a2 h2 a3 h3 a4 h4 hc x = k0_pay4 x (k0_pay2 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S4x1x3) hz3, View.readCov_unit_zero (S := S4x1x3) _ hz3]
  simp only [View.readAt_eq_ld, h2.read_unread, View.ld_unit_zero (S := S4x5000x4) hz3]

/-- First step of a half, running maximum: the column maxima combined with the all-(−∞) block. -/
theorem out_A_2 (c : Dev nD) (i : grid0.Coords) (a2 : Memref sig .tc .vmem S4x5000x4 .f32) (h2 : a2.IsWhole)
    (a3 : Memref sig .tc .vmem S4x1x3 .f32) (h3 : a3.IsWhole) (a4 : Memref sig .tc .vmem S4x1x3 .f32) (h4 : a4.IsWhole)
    (hc : cond0_0 i) (x : Vec F S4x5000x4 .f32) :
    out0_A_2 c i a2 h2 a3 h3 a4 h4 hc x = k0_pay5 x (k0_pay3 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S4x1x3) hz3, View.readCov_unit_zero (S := S4x1x3) _ hz3]
  simp only [View.readAt_eq_ld, h2.read_unread, View.ld_unit_zero (S := S4x5000x4) hz3]

/-- A later step, running minimum: the column minima combined with the carried block. -/
theorem out_B_1 (c : Dev nD) (i : grid0.Coords) (a2 : Memref sig .tc .vmem S4x5000x4 .f32) (h2 : a2.IsWhole)
    (a3 : Memref sig .tc .vmem S4x1x3 .f32) (h3 : a3.IsWhole) (a4 : Memref sig .tc .vmem S4x1x3 .f32) (h4 : a4.IsWhole)
    (hc : ¬cond0_0 i) (x : Vec F S4x5000x4 .f32) (xo1 xo2 : Vec F S4x1x3 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero (S := S4x1x3) hz3]
  simp only [View.readAt_eq_ld, h2.read_unread, h3.read_unread, View.ld_unit_zero (S := S4x5000x4) hz3,
    View.ld_unit_zero (S := S4x1x3) hz3]

/-- A later step, running maximum: the column maxima combined with the carried block. -/
theorem out_B_2 (c : Dev nD) (i : grid0.Coords) (a2 : Memref sig .tc .vmem S4x5000x4 .f32) (h2 : a2.IsWhole)
    (a3 : Memref sig .tc .vmem S4x1x3 .f32) (h3 : a3.IsWhole) (a4 : Memref sig .tc .vmem S4x1x3 .f32) (h4 : a4.IsWhole)
    (hc : ¬cond0_0 i) (x : Vec F S4x5000x4 .f32) (xo1 xo2 : Vec F S4x1x3 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero (S := S4x1x3) hz3]
  simp only [View.readAt_eq_ld, h2.read_unread, h4.read_unread, View.ld_unit_zero (S := S4x5000x4) hz3,
    View.ld_unit_zero (S := S4x1x3) hz3]

end Pieces

/-! ## One step's combination at an entry

Entry (p, 0, ch) of the combined block is the min of the carried entry and the least of x(p, k, ch) over the 5000 points k
of the step's block x (its first three channels), that least taken from +∞. -/

section Payload

/-- The first-three-channels slice of a block, at the index that inserts point k between sample p and channel ch. -/
theorem slice_lift_apply (x : Vec Ideal S4x5000x4 .f32) (p : Fin 4) (ch : Fin 3) (k : Fin 5000) :
    k0_pay1 (F := Ideal) x (reduces_S4x5000x3_S4x3.lift (ix2 p ch) k) = x (ix3 p k (Cert.Spec.ch4 ch)) := by
  delta k0_pay1
  refine extractStridedSlice_apply _ x _ _ (ix3 p k (Cert.Spec.ch4 ch)) fun a => ?_
  match a with
  | ⟨0, _⟩ => exact (Nat.zero_add _).symm
  | ⟨1, _⟩ => exact (Nat.zero_add _).symm
  | ⟨2, _⟩ => exact (Nat.zero_add _).symm

/-- The column minimum of a block at (p, ch): the fold of min from +∞ over its 5000 points. -/
theorem red_min_apply (x : Vec Ideal S4x5000x4 .f32) (p : Fin 4) (ch : Fin 3) :
    multiReduction (F := Ideal) .minimumf [1] S4x3 (k0_pay1 x) 0x7F800000#32 reduces_S4x5000x3_S4x3 (.inl rfl) rfl (ix2 p ch)
      = (Finset.univ : Finset (Fin 5000)).fold min (Ideal.ofBits .f32 0x7F800000#32) (fun k => x (ix3 p k (Cert.Spec.ch4 ch))) := by
  refine (Ideal.multiReduction_minimumf_single (k0_pay1 x) 0x7F800000#32 reduces_S4x5000x3_S4x3 (.inl rfl) rfl (ix2 p ch)).trans ?_
  exact congrArg (fun f : Fin 5000 → EReal => Finset.fold min (Ideal.ofBits .f32 0x7F800000#32) f Finset.univ)
    (funext fun k => slice_lift_apply x p ch k)

/-- The combined minimum block at (p, 0, ch). The [4, 3] block of column minima is read as [4, 1, 3] at the same
    row-major position. -/
theorem pay4_apply (x : Vec Ideal S4x5000x4 .f32) (xo : Vec Ideal S4x1x3 .f32) (p : Fin 4) (ch : Fin 3) :
    k0_pay4 (F := Ideal) x xo (ix3 p (0 : Fin 1) ch)
      = min (xo (ix3 p (0 : Fin 1) ch))
          ((Finset.univ : Finset (Fin 5000)).fold min (Ideal.ofBits .f32 0x7F800000#32) (fun k => x (ix3 p k (Cert.Spec.ch4 ch)))) := by
  delta k0_pay4
  refine (minimumf_apply _ _ _).trans (congrArg₂ min ?_ ?_)
  · exact congrFun (shapeCast_self xo _) _
  · refine (shapeCast_apply _ shapeCasts_S4x3_S4x1x3 (ix3 p (0 : Fin 1) ch) (ix2 p ch) ?_).trans (red_min_apply x p ch)
    rw [Shape.rowMajor_val_two, Shape.rowMajor_val_three]
    show p.val * 3 + ch.val = (p.val * 1 + 0) * 3 + ch.val
    omega

end Payload

/-! ## The running minimum, step by step -/

section Steps
variable {F : FTy → Type} [FloatOps F]
variable (V : (c : Dev nD) → (b : Ref sig .tc) → Buf (Elt F) ((c : Thread nD τ).loc b))

/-- After the first step of a half (a step number divisible by 80): that step's block combined with +∞. -/
theorem min_reset (c : Dev nD) (t : Fin cfg0.N) (h0 : t.val % 80 = 0) :
    (outsAt0 V c t.val t.isLt).1 = k0_pay4 (iblk0 V c 0 t) (k0_pay2 (F := F)) :=
  (congrArg Prod.fst (outsAt0_A V c t h0)).trans
    (out_A_1 c (grid0.coords t) (ms0_0 t) (hs0_0 t) (ms0_1 t) (hs0_1 t) (ms0_2 t) (hs0_2 t) ((hcond0_0 t).mpr h0) (iblk0 V c 0 t))

/-- After any other step: that step's block combined with what the step before left. -/
theorem min_step (c : Dev nD) (t : Fin cfg0.N) (h0 : ¬t.val % 80 = 0) :
    (outsAt0 V c t.val t.isLt).1
      = k0_pay4 (iblk0 V c 0 t) (outsAt0 V c (t.val - 1) (Nat.lt_of_le_of_lt (Nat.sub_le _ _) t.isLt)).1 :=
  (congrArg Prod.fst (outsAt0_B V c t h0)).trans
    (out_B_1 c (grid0.coords t) (ms0_0 t) (hs0_0 t) (ms0_1 t) (hs0_1 t) (ms0_2 t) (hs0_2 t) (fun h => h0 ((hcond0_0 t).mp h))
      (iblk0 V c 0 t) (outsAt0 V c (t.val - 1) (Nat.lt_of_le_of_lt (Nat.sub_le _ _) t.isLt)).1
      (outsAt0 V c (t.val - 1) (Nat.lt_of_le_of_lt (Nat.sub_le _ _) t.isLt)).2)

end Steps

/-! ## Where a step's block sits in the points array

Step t works on half t / 80 and on the 5000 points from 5000·(t mod 80): entry (p, k, c) of its block is entry
(4·(t / 80) + p, 5000·(t mod 80) + k, c) of the array; the two running blocks belong to rows 4·(t / 80) … of theirs. -/

section Blocks

/-- Block numbers of the three arrays at step t, per axis. -/
theorem idx_facts : ∀ t : Fin cfg0.N,
    win0_0.index t (0 : Fin 3) = t.val / 80 ∧ win0_0.index t (1 : Fin 3) = t.val % 80 ∧ win0_0.index t (2 : Fin 3) = 0
    ∧ win0_1.index t (0 : Fin 3) = t.val / 80 ∧ win0_1.index t (1 : Fin 3) = 0 ∧ win0_1.index t (2 : Fin 3) = 0
    ∧ win0_2.index t (0 : Fin 3) = t.val / 80 ∧ win0_2.index t (1 : Fin 3) = 0 ∧ win0_2.index t (2 : Fin 3) = 0 :=
  (by decide +kernel : ∀ t : Fin grid0.N, _)

variable (V : (c : Dev nD) → (b : Ref sig .tc) → Buf (Elt Ideal) ((c : Thread nD τ).loc b))

/-- An entry of step t's block is the entry of the points array at sample b = 4·(t / 80) + p and point
    n = 5000·(t mod 80) + k. -/
theorem blk_entry (c : Dev nD) (t : Fin cfg0.N) (p : Fin 4) (k : Fin 5000) (c4 : Fin 4) (b : Fin 8) (n : Fin 400000)
    (hb : b.val = 4 * (t.val / 80) + p.val) (hn : n.val = 5000 * (t.val % 80) + k.val) :
    iblk0 V c 0 t (ix3 p k c4) = V c main_arg0 (ix3 b n c4) := by
  obtain ⟨e0, e1, e2, -⟩ := idx_facts t
  unfold iblk0
  rw [View.read_apply]
  show V c main_arg0 (((cfg0.win 0).blk t).view.emb (ix3 p k c4)) = V c main_arg0 (ix3 b n c4)
  refine congrArg (V c main_arg0) (funext fun a => Fin.ext ?_)
  match a with
  | ⟨0, _⟩ => show win0_0.index t (0 : Fin 3) * 4 + 1 * p.val = b.val; omega
  | ⟨1, _⟩ => show win0_0.index t (1 : Fin 3) * 5000 + 1 * k.val = n.val; omega
  | ⟨2, _⟩ => show win0_0.index t (2 : Fin 3) * 4 + 1 * c4.val = c4.val; omega

end Blocks

/-! ## The universal property of the running minimum -/

section Invariant
variable (V : (c : Dev nD) → (b : Ref sig .tc) → Buf (Elt Ideal) ((c : Thread nD τ).loc b))

/-- z is below the combined entry iff it is below the carried entry, below +∞, and below each of the block's 5000
    entries of that sample and channel (min is the greatest lower bound; so is a fold of min). -/
theorem le_pay4_iff (x : Vec Ideal S4x5000x4 .f32) (xo : Vec Ideal S4x1x3 .f32) (p : Fin 4) (ch : Fin 3) (z : EReal) :
    z ≤ (k0_pay4 (F := Ideal) x xo (ix3 p (0 : Fin 1) ch) : EReal)
      ↔ z ≤ (xo (ix3 p (0 : Fin 1) ch) : EReal) ∧ z ≤ Ideal.ofBits .f32 0x7F800000#32
          ∧ ∀ k : Fin 5000, z ≤ (x (ix3 p k (Cert.Spec.ch4 ch)) : EReal) := by
  rw [pay4_apply, le_min_iff, Finset.le_fold_min]
  exact and_congr_right fun _ => and_congr_right fun _ => ⟨fun h k => h k (Finset.mem_univ k), fun h k _ => h k⟩

/-- The 5000 entries of step 80·q + s's block, for sample p of the half, are the entries of sample b = 4·q + p at the
    points n with 5000·s ≤ n < 5000·(s + 1). -/
theorem blk_le_iff (c : Dev nD) (t : Fin cfg0.N) (q s : Nat) (ht : t.val = 80 * q + s) (hs : s < 80) (p : Fin 4) (c4 : Fin 4)
    (b : Fin 8) (hb : b.val = 4 * q + p.val) (z : EReal) :
    (∀ k : Fin 5000, z ≤ (iblk0 V c 0 t (ix3 p k c4) : EReal))
      ↔ ∀ n : Fin 400000, 5000 * s ≤ n.val → n.val < 5000 * (s + 1) → z ≤ (V c main_arg0 (ix3 b n c4) : EReal) := by
  have hq : t.val / 80 = q := by omega
  have hr : t.val % 80 = s := by omega
  constructor
  · intro h n h1 h2
    have hk : n.val - 5000 * s < 5000 := by omega
    have := h ⟨n.val - 5000 * s, hk⟩
    rwa [blk_entry V c t p ⟨n.val - 5000 * s, hk⟩ c4 b n (by omega)
      (by show n.val = 5000 * (t.val % 80) + (n.val - 5000 * s); omega)] at this
  · intro h k
    have hk := k.isLt
    have hn : 5000 * s + k.val < 400000 := by omega
    rw [blk_entry V c t p k c4 b ⟨5000 * s + k.val, hn⟩ (by omega)
      (by show 5000 * s + k.val = 5000 * (t.val % 80) + k.val; omega)]
    exact h ⟨5000 * s + k.val, hn⟩ (by show 5000 * s ≤ 5000 * s + k.val; omega)
      (by show 5000 * s + k.val < 5000 * (s + 1); omega)

/-- After step j of half q, z is below the running minimum of sample b = 4·q + p and channel ch iff z is below +∞ and
    below every entry of that sample and channel among the first 5000·(j + 1) points. By induction on j: the first step
    starts from +∞, each later one adds its 5000 points to what the step before had seen. -/
theorem le_run_min_iff (c : Dev nD) (q : Nat) (p : Fin 4) (ch : Fin 3) (b : Fin 8) (hb : b.val = 4 * q + p.val) (z : EReal) :
    ∀ (j : Nat) (_ : j < 80) (h : 80 * q + j < cfg0.N),
      z ≤ ((outsAt0 V c (80 * q + j) h).1 (ix3 p (0 : Fin 1) ch) : EReal)
        ↔ z ≤ Ideal.ofBits .f32 0x7F800000#32
          ∧ ∀ n : Fin 400000, n.val < 5000 * (j + 1) → z ≤ (V c main_arg0 (ix3 b n (Cert.Spec.ch4 ch)) : EReal)
  | 0, hj, h => by
    have e := min_reset V c ⟨80 * q + 0, h⟩ (by show (80 * q + 0) % 80 = 0; omega)
    rw [show (outsAt0 V c (80 * q + 0) h).1 = _ from e, le_pay4_iff,
      blk_le_iff V c ⟨80 * q + 0, h⟩ q 0 rfl hj p (Cert.Spec.ch4 ch) b hb z]
    constructor
    · rintro ⟨-, hW, hn⟩; exact ⟨hW, fun n hlt => hn n (by omega) (by omega)⟩
    · rintro ⟨hW, hn⟩; exact ⟨hW, hW, fun n _ hlt => hn n (by omega)⟩
  | j + 1, hj, h => by
    have e := min_step V c ⟨80 * q + (j + 1), h⟩ (by show ¬(80 * q + (j + 1)) % 80 = 0; omega)
    have ih := le_run_min_iff c q p ch b hb z j (by omega) (Nat.lt_of_succ_lt h)
    rw [show (outsAt0 V c (80 * q + (j + 1)) h).1 = _ from e, le_pay4_iff,
      blk_le_iff V c ⟨80 * q + (j + 1), h⟩ q (j + 1) rfl hj p (Cert.Spec.ch4 ch) b hb z]
    constructor
    · rintro ⟨h1, hW, hn⟩
      have h1' := ih.mp h1
      refine ⟨hW, fun n hlt => ?_⟩
      by_cases hlo : n.val < 5000 * (j + 1)
      · exact h1'.2 n hlo
      · exact hn n (by omega) (by omega)
    · rintro ⟨hW, hn⟩
      exact ⟨ih.mpr ⟨hW, fun n hlt => hn n (by omega)⟩, hW, fun n _ hlt => hn n hlt⟩

end Invariant

/-! ## The first result array -/

section Final
variable (V : (c : Dev nD) → (b : Ref sig .tc) → Buf (Elt Ideal) ((c : Thread nD τ).loc b))

-- the least over all 400000 points enters only through its universal property
attribute [local irreducible] Cert.Spec.rawMin

/-- The [8, 1, 3] array of per-sample, per-channel minima of the points. -/
def minArr (c : Dev nD) : Buf (Elt Ideal) ((c : Thread nD τ).loc main_v0_0) :=
  fun i => Cert.Spec.rawMin (V c main_arg0) (i 0) (i 2)

/-- After the last step of a half (step number ≡ 79 mod 80) the running minimum of sample b = 4·(t / 80) + p is the
    minimum over all points: both are the greatest z below +∞ and below every one of the sample's 400000 entries. -/
theorem last_min_eq (c : Dev nD) (t : Fin cfg0.N) (h79 : t.val % 80 = 79) (p : Fin 4) (ch : Fin 3) (b : Fin 8)
    (hb : b.val = 4 * (t.val / 80) + p.val) :
    ((outsAt0 V c t.val t.isLt).1 (ix3 p (0 : Fin 1) ch) : EReal) = Cert.Spec.rawMin (V c main_arg0) b ch := by
  have hN : cfg0.N = 160 := N_0
  have ht := t.isLt
  have hlt : 80 * (t.val / 80) + 79 < cfg0.N := by omega
  have same : ∀ (u : Nat) (hu : u < cfg0.N), u = t.val → (outsAt0 V c u hu).1 = (outsAt0 V c t.val t.isLt).1 :=
    fun u hu e => by subst e; rfl
  rw [← same _ hlt (by omega)]
  refine eq_of_forall_le_iff fun z => ?_
  rw [le_run_min_iff V c (t.val / 80) p ch b hb z 79 (by omega) hlt]
  delta Cert.Spec.rawMin
  rw [Finset.le_fold_min]
  exact and_congr_right fun _ => ⟨fun h n _ => h n (by have := n.isLt; omega), fun h n _ => h n (Finset.mem_univ n)⟩

/-- The same at any entry j of the running block and any entry i of the array that lies over it. -/
theorem last_min_at (c : Dev nD) (t : Fin cfg0.N) (h79 : t.val % 80 = 79) (j : S4x1x3.Idx) (i : S8x1x3.Idx)
    (h0 : (i 0).val = 4 * (t.val / 80) + (j 0).val) (h2 : (i 2).val = (j 2).val) :
    ((outsAt0 V c t.val t.isLt).1 j : EReal) = minArr V c i := by
  obtain ⟨p, u, ch, rfl⟩ : ∃ (p : Fin 4) (u : Fin 1) (ch : Fin 3), j = ix3 p u ch := ⟨j 0, j 1, j 2, eq_ix3 j⟩
  obtain rfl : u = 0 := Subsingleton.elim _ _
  obtain rfl : ch = i 2 := Fin.ext h2.symm
  exact last_min_eq V c t h79 p (i 2) (i 0) h0

/-- If after the last step of each half the first running block agrees, entry by entry, with an array G on the rows
    of that half, then what such a step writes back is its block of G. -/
theorem flushed_1_of (c : Dev nD) (G : Buf (Elt Ideal) ((c : Thread nD τ).loc main_v0_0))
    (hG : ∀ (t : Fin cfg0.N), t.val % 80 = 79 → ∀ (j : S4x1x3.Idx) (i : S8x1x3.Idx),
      (i 0).val = 4 * (t.val / 80) + (j 0).val → (i 2).val = (j 2).val → (outsAt0 V c t.val t.isLt).1 j = G i)
    (t : Fin cfg0.N) (hf : (cfg0.win 1).flush t = true) :
    (dat0 V c).flushed 1 t = ((cfg0.win 1).blk t).view.read (Elt Ideal) G := by
  have h79 : t.val % 80 = 79 := (flush0_1 t).mp hf
  obtain ⟨-, -, -, e0, e1, e2, -⟩ := idx_facts t
  show (cfg0.win 1).cut (grid0.coords t) ((dat0 V c).after 1 t) = _
  rw [after0_1]
  funext y
  show (outsAt0 V c t.val t.isLt).1 ((cfg0.win 1).xinj (grid0.coords t) y) = G (((cfg0.win 1).blk t).view.emb y)
  refine hG t h79 _ _ ?_ ?_
  · show win0_1.index t (0 : Fin 3) * 4 + 1 * (y 0).val = 4 * (t.val / 80) + (y 0).val; omega
  · show win0_1.index t (2 : Fin 3) * 3 + 1 * (y 2).val = (y 2).val; omega

/-- Row b of the first result array is written back by the last step of half b / 4, step 80·(b / 4) + 79. -/
theorem cover_1 (i : S8x1x3.Idx) :
    ∃ t : Fin cfg0.N, (cfg0.win 1).flush t = true ∧ i ∈ ((cfg0.win 1).blk t).view.set := by
  have hN : cfg0.N = 160 := N_0
  have hi0 : (i 0).val < 8 := (i 0).isLt
  have hi1 : (i 1).val < 1 := (i 1).isLt
  have hi2 : (i 2).val < 3 := (i 2).isLt
  have hlt : 80 * ((i 0).val / 4) + 79 < cfg0.N := by omega
  refine ⟨⟨80 * ((i 0).val / 4) + 79, hlt⟩, (flush0_1 _).mpr (by show (80 * ((i 0).val / 4) + 79) % 80 = 79; omega), ?_⟩
  obtain ⟨-, -, -, e0, e1, e2, -⟩ := idx_facts ⟨80 * ((i 0).val / 4) + 79, hlt⟩
  have e0' : win0_1.index ⟨80 * ((i 0).val / 4) + 79, hlt⟩ (0 : Fin 3) = (i 0).val / 4 := by
    rw [e0]; show (80 * ((i 0).val / 4) + 79) / 80 = (i 0).val / 4; omega
  show i ∈ ((View.whole main_v0_0).slice (win0_1.rect ⟨80 * ((i 0).val / 4) + 79, hlt⟩)).set
  rw [View.set_slice_whole, Rect.mem_set_unit]
  intro a
  match a with
  | ⟨0, _⟩ =>
    show win0_1.index ⟨80 * ((i 0).val / 4) + 79, hlt⟩ (0 : Fin 3) * 4 ≤ (i 0).val
      ∧ (i 0).val < win0_1.index ⟨80 * ((i 0).val / 4) + 79, hlt⟩ (0 : Fin 3) * 4 + 4
    omega
  | ⟨1, _⟩ =>
    show win0_1.index ⟨80 * ((i 0).val / 4) + 79, hlt⟩ (1 : Fin 3) * 1 ≤ (i 1).val
      ∧ (i 1).val < win0_1.index ⟨80 * ((i 0).val / 4) + 79, hlt⟩ (1 : Fin 3) * 1 + 1
    omega
  | ⟨2, _⟩ =>
    show win0_1.index ⟨80 * ((i 0).val / 4) + 79, hlt⟩ (2 : Fin 3) * 3 ≤ (i 2).val
      ∧ (i 2).val < win0_1.index ⟨80 * ((i 0).val / 4) + 79, hlt⟩ (2 : Fin 3) * 3 + 3
    omega

/-- So the first result array ends holding any G the last steps' running blocks agree with. -/
theorem final_1_of (c : Dev nD) (G : Buf (Elt Ideal) ((c : Thread nD τ).loc main_v0_0))
    (hG : ∀ (t : Fin cfg0.N), t.val % 80 = 79 → ∀ (j : S4x1x3.Idx) (i : S8x1x3.Idx),
      (i 0).val = 4 * (t.val / 80) + (j 0).val → (i 2).val = (j 2).val → (outsAt0 V c t.val t.isLt).1 j = G i) :
    (dat0 V c).arrAt 1 cfg0.N = G :=
  (dat0 V c).arrAt_eq_of_cover 1 G (flushed_1_of V c G hG) cover_1

/-- The first result array is the array of minima. -/
theorem minFinal (c : Dev nD) : (dat0 V c).arrAt 1 cfg0.N = minArr V c :=
  final_1_of V c (minArr V c) (last_min_at V c)

/-- Entry (b, 0, ch) of the first result array: the least of points(b, ·, ch) over the 400000 points, from +∞. -/
theorem minArray (c : Dev nD) (b : Fin 8) (ch : Fin 3) :
    (dat0 (F := Ideal) V c).arrAt 1 cfg0.N (ix3 b (0 : Fin 1) ch) = Cert.Spec.rawMin (V c main_arg0) b ch :=
  congrFun (minFinal V c) (ix3 b (0 : Fin 1) ch)

end Final

/-! ## The running maximum over a half's 80 steps

The mirror image of the running minimum: the second running block is set to −∞ at the first step of a half and
combined by max with the step's column maxima at every step, so after the last step of a half it holds, per sample and
channel, the greatest of the sample's 400000 point entries. An extended real is determined by the set of its upper
bounds, so the whole argument is carried on the statement "value ≤ z". -/

section PayloadMax

/-- The column maximum of a block at (p, ch): the fold of max from −∞ over its 5000 points. -/
theorem red_max_apply (x : Vec Ideal S4x5000x4 .f32) (p : Fin 4) (ch : Fin 3) :
    multiReduction (F := Ideal) .maximumf [1] S4x3 (k0_pay1 x) 0xFF800000#32 reduces_S4x5000x3_S4x3 (.inl rfl) rfl (ix2 p ch)
      = (Finset.univ : Finset (Fin 5000)).fold max (Ideal.ofBits .f32 0xFF800000#32) (fun k => x (ix3 p k (Cert.Spec.ch4 ch))) := by
  refine (Ideal.multiReduction_maximumf_single (k0_pay1 x) 0xFF800000#32 reduces_S4x5000x3_S4x3 (.inl rfl) rfl (ix2 p ch)).trans ?_
  exact congrArg (fun f : Fin 5000 → EReal => Finset.fold max (Ideal.ofBits .f32 0xFF800000#32) f Finset.univ)
    (funext fun k => slice_lift_apply x p ch k)

/-- The combined maximum block at (p, 0, ch): the max of the carried entry and the block's column maximum. -/
theorem pay5_apply (x : Vec Ideal S4x5000x4 .f32) (xo : Vec Ideal S4x1x3 .f32) (p : Fin 4) (ch : Fin 3) :
    k0_pay5 (F := Ideal) x xo (ix3 p (0 : Fin 1) ch)
      = max (xo (ix3 p (0 : Fin 1) ch))
          ((Finset.univ : Finset (Fin 5000)).fold max (Ideal.ofBits .f32 0xFF800000#32) (fun k => x (ix3 p k (Cert.Spec.ch4 ch)))) := by
  delta k0_pay5
  refine (maximumf_apply _ _ _).trans (congrArg₂ max ?_ ?_)
  · exact congrFun (shapeCast_self xo _) _
  · refine (shapeCast_apply _ shapeCasts_S4x3_S4x1x3 (ix3 p (0 : Fin 1) ch) (ix2 p ch) ?_).trans (red_max_apply x p ch)
    rw [Shape.rowMajor_val_two, Shape.rowMajor_val_three]
    show p.val * 3 + ch.val = (p.val * 1 + 0) * 3 + ch.val
    omega

end PayloadMax

section StepsMax
variable {F : FTy → Type} [FloatOps F]
variable (V : (c : Dev nD) → (b : Ref sig .tc) → Buf (Elt F) ((c : Thread nD τ).loc b))

/-- After the first step of a half (a step number divisible by 80): that step's block combined with −∞. -/
theorem max_reset (c : Dev nD) (t : Fin cfg0.N) (h0 : t.val % 80 = 0) :
    (outsAt0 V c t.val t.isLt).2 = k0_pay5 (iblk0 V c 0 t) (k0_pay3 (F := F)) :=
  (congrArg Prod.snd (outsAt0_A V c t h0)).trans
    (out_A_2 c (grid0.coords t) (ms0_0 t) (hs0_0 t) (ms0_1 t) (hs0_1 t) (ms0_2 t) (hs0_2 t) ((hcond0_0 t).mpr h0) (iblk0 V c 0 t))

/-- After any other step: that step's block combined with what the step before left. -/
theorem max_step (c : Dev nD) (t : Fin cfg0.N) (h0 : ¬t.val % 80 = 0) :
    (outsAt0 V c t.val t.isLt).2
      = k0_pay5 (iblk0 V c 0 t) (outsAt0 V c (t.val - 1) (Nat.lt_of_le_of_lt (Nat.sub_le _ _) t.isLt)).2 :=
  (congrArg Prod.snd (outsAt0_B V c t h0)).trans
    (out_B_2 c (grid0.coords t) (ms0_0 t) (hs0_0 t) (ms0_1 t) (hs0_1 t) (ms0_2 t) (hs0_2 t) (fun h => h0 ((hcond0_0 t).mp h))
      (iblk0 V c 0 t) (outsAt0 V c (t.val - 1) (Nat.lt_of_le_of_lt (Nat.sub_le _ _) t.isLt)).1
      (outsAt0 V c (t.val - 1) (Nat.lt_of_le_of_lt (Nat.sub_le _ _) t.isLt)).2)

end StepsMax

section InvariantMax
variable (V : (c : Dev nD) → (b : Ref sig .tc) → Buf (Elt Ideal) ((c : Thread nD τ).loc b))

/-- z is above the combined entry iff it is above the carried entry, above −∞, and above each of the block's 5000
    entries of that sample and channel (max is the least upper bound; so is a fold of max). -/
theorem pay5_le_iff (x : Vec Ideal S4x5000x4 .f32) (xo : Vec Ideal S4x1x3 .f32) (p : Fin 4) (ch : Fin 3) (z : EReal) :
    (k0_pay5 (F := Ideal) x xo (ix3 p (0 : Fin 1) ch) : EReal) ≤ z
      ↔ (xo (ix3 p (0 : Fin 1) ch) : EReal) ≤ z ∧ Ideal.ofBits .f32 0xFF800000#32 ≤ z
          ∧ ∀ k : Fin 5000, (x (ix3 p k (Cert.Spec.ch4 ch)) : EReal) ≤ z := by
  rw [pay5_apply, max_le_iff, Finset.fold_max_le]
  exact and_congr_right fun _ => and_congr_right fun _ => ⟨fun h k => h k (Finset.mem_univ k), fun h k _ => h k⟩

/-- The 5000 entries of step 80·q + s's block, for sample p of the half, are the entries of sample b = 4·q + p at the
    points n with 5000·s ≤ n < 5000·(s + 1). -/
theorem blk_ge_iff (c : Dev nD) (t : Fin cfg0.N) (q s : Nat) (ht : t.val = 80 * q + s) (hs : s < 80) (p : Fin 4) (c4 : Fin 4)
    (b : Fin 8) (hb : b.val = 4 * q + p.val) (z : EReal) :
    (∀ k : Fin 5000, @LE.le EReal _ (iblk0 V c 0 t (ix3 p k c4)) z)
      ↔ ∀ n : Fin 400000, 5000 * s ≤ n.val → n.val < 5000 * (s + 1) → @LE.le EReal _ (V c main_arg0 (ix3 b n c4)) z := by
  have hq : t.val / 80 = q := by omega
  have hr : t.val % 80 = s := by omega
  constructor
  · intro h n h1 h2
    have hk : n.val - 5000 * s < 5000 := by omega
    have := h ⟨n.val - 5000 * s, hk⟩
    rwa [blk_entry V c t p ⟨n.val - 5000 * s, hk⟩ c4 b n (by omega) (by show n.val = 5000 * (t.val % 80) + (n.val - 5000 * s); omega)] at this
  · intro h k
    have hk := k.isLt
    have hn : 5000 * s + k.val < 400000 := by omega
    rw [blk_entry V c t p k c4 b ⟨5000 * s + k.val, hn⟩ (by omega) (by show 5000 * s + k.val = 5000 * (t.val % 80) + k.val; omega)]
    exact h ⟨5000 * s + k.val, hn⟩ (by show 5000 * s ≤ 5000 * s + k.val; omega) (by show 5000 * s + k.val < 5000 * (s + 1); omega)

/-- After step j of half q, z is above the running maximum of sample b = 4·q + p and channel ch iff z is above −∞ and
    above every entry of that sample and channel among the first 5000·(j + 1) points. By induction on j. -/
theorem run_max_le_iff (c : Dev nD) (q : Nat) (p : Fin 4) (ch : Fin 3) (b : Fin 8) (hb : b.val = 4 * q + p.val) (z : EReal) :
    ∀ (j : Nat) (_ : j < 80) (h : 80 * q + j < cfg0.N),
      ((outsAt0 V c (80 * q + j) h).2 (ix3 p (0 : Fin 1) ch) : EReal) ≤ z
        ↔ Ideal.ofBits .f32 0xFF800000#32 ≤ z
          ∧ ∀ n : Fin 400000, n.val < 5000 * (j + 1) → @LE.le EReal _ (V c main_arg0 (ix3 b n (Cert.Spec.ch4 ch))) z
  | 0, hj, h => by
    have e := max_reset V c ⟨80 * q + 0, h⟩ (by show (80 * q + 0) % 80 = 0; omega)
    rw [show (outsAt0 V c (80 * q + 0) h).2 = _ from e, pay5_le_iff,
      blk_ge_iff V c ⟨80 * q + 0, h⟩ q 0 rfl hj p (Cert.Spec.ch4 ch) b hb z]
    constructor
    · rintro ⟨-, hW, hn⟩; exact ⟨hW, fun n hlt => hn n (by omega) (by omega)⟩
    · rintro ⟨hW, hn⟩; exact ⟨hW, hW, fun n _ hlt => hn n (by omega)⟩
  | j + 1, hj, h => by
    have e := max_step V c ⟨80 * q + (j + 1), h⟩ (by show ¬(80 * q + (j + 1)) % 80 = 0; omega)
    have ih := run_max_le_iff c q p ch b hb z j (by omega) (Nat.lt_of_succ_lt h)
    rw [show (outsAt0 V c (80 * q + (j + 1)) h).2 = _ from e, pay5_le_iff,
      blk_ge_iff V c ⟨80 * q + (j + 1), h⟩ q (j + 1) rfl hj p (Cert.Spec.ch4 ch) b hb z]
    constructor
    · rintro ⟨h1, hW, hn⟩
      have h1' := ih.mp h1
      refine ⟨hW, fun n hlt => ?_⟩
      by_cases hlo : n.val < 5000 * (j + 1)
      · exact h1'.2 n hlo
      · exact hn n (by omega) (by omega)
    · rintro ⟨hW, hn⟩
      exact ⟨ih.mpr ⟨hW, fun n hlt => hn n (by omega)⟩, hW, fun n _ hlt => hn n hlt⟩

end InvariantMax

section FinalMax
variable (V : (c : Dev nD) → (b : Ref sig .tc) → Buf (Elt Ideal) ((c : Thread nD τ).loc b))

-- the greatest over all 400000 points enters only through its universal property
attribute [local irreducible] Cert.Spec.rawMax

/-- The array of per-sample, per-channel maxima of the points. -/
def maxArr (c : Dev nD) : Buf (Elt Ideal) ((c : Thread nD τ).loc main_v0_1) :=
  fun i => Cert.Spec.rawMax (V c main_arg0) (i 0) (i 2)

/-- After the last step of a half (step number ≡ 79 mod 80) the running maximum of sample b = 4·(t / 80) + p is the
    maximum over all points: both are the least z above −∞ and above every one of the sample's 400000 entries. -/
theorem last_max_eq (c : Dev nD) (t : Fin cfg0.N) (h79 : t.val % 80 = 79) (p : Fin 4) (ch : Fin 3) (b : Fin 8)
    (hb : b.val = 4 * (t.val / 80) + p.val) :
    ((outsAt0 V c t.val t.isLt).2 (ix3 p (0 : Fin 1) ch) : EReal) = Cert.Spec.rawMax (V c main_arg0) b ch := by
  have hN : cfg0.N = 160 := N_0
  have ht := t.isLt
  have hlt : 80 * (t.val / 80) + 79 < cfg0.N := by omega
  have same : ∀ (u : Nat) (hu : u < cfg0.N), u = t.val → (outsAt0 V c u hu).2 = (outsAt0 V c t.val t.isLt).2 :=
    fun u hu e => by subst e; rfl
  rw [← same _ hlt (by omega)]
  refine eq_of_forall_ge_iff fun z => ?_
  rw [run_max_le_iff V c (t.val / 80) p ch b hb z 79 (by omega) hlt]
  delta Cert.Spec.rawMax
  rw [Finset.fold_max_le]
  exact and_congr_right fun _ => ⟨fun h n _ => h n (by have := n.isLt; omega), fun h n _ => h n (Finset.mem_univ n)⟩

/-- The same at any entry j of the running block and any entry i of the array that lies over it. -/
theorem last_max_at (c : Dev nD) (t : Fin cfg0.N) (h79 : t.val % 80 = 79) (j : S4x1x3.Idx) (i : S8x1x3.Idx)
    (h0 : (i 0).val = 4 * (t.val / 80) + (j 0).val) (h2 : (i 2).val = (j 2).val) :
    ((outsAt0 V c t.val t.isLt).2 j : EReal) = maxArr V c i := by
  obtain ⟨p, u, ch, rfl⟩ : ∃ (p : Fin 4) (u : Fin 1) (ch : Fin 3), j = ix3 p u ch := ⟨j 0, j 1, j 2, eq_ix3 j⟩
  obtain rfl : u = 0 := Subsingleton.elim _ _
  obtain rfl : ch = i 2 := Fin.ext h2.symm
  exact last_max_eq V c t h79 p (i 2) (i 0) h0

/-- If after the last step of each half the second running block agrees, entry by entry, with an array G on the rows
    of that half, then what such a step writes back is its block of G. -/
theorem flushed_2_of (c : Dev nD) (G : Buf (Elt Ideal) ((c : Thread nD τ).loc main_v0_1))
    (hG : ∀ (t : Fin cfg0.N), t.val % 80 = 79 → ∀ (j : S4x1x3.Idx) (i : S8x1x3.Idx),
      (i 0).val = 4 * (t.val / 80) + (j 0).val → (i 2).val = (j 2).val → (outsAt0 V c t.val t.isLt).2 j = G i)
    (t : Fin cfg0.N) (hf : (cfg0.win 2).flush t = true) :
    (dat0 V c).flushed 2 t = ((cfg0.win 2).blk t).view.read (Elt Ideal) G := by
  have h79 : t.val % 80 = 79 := (flush0_2 t).mp hf
  obtain ⟨-, -, -, -, -, -, e0, e1, e2⟩ := idx_facts t
  show (cfg0.win 2).cut (grid0.coords t) ((dat0 V c).after 2 t) = _
  rw [after0_2]
  funext y
  show (outsAt0 V c t.val t.isLt).2 ((cfg0.win 2).xinj (grid0.coords t) y) = G (((cfg0.win 2).blk t).view.emb y)
  refine hG t h79 _ _ ?_ ?_
  · show win0_2.index t (0 : Fin 3) * 4 + 1 * (y 0).val = 4 * (t.val / 80) + (y 0).val; omega
  · show win0_2.index t (2 : Fin 3) * 3 + 1 * (y 2).val = (y 2).val; omega

/-- Row b of the second result array is written back by the last step of half b / 4, step 80·(b / 4) + 79. -/
theorem cover_2 (i : S8x1x3.Idx) :
    ∃ t : Fin cfg0.N, (cfg0.win 2).flush t = true ∧ i ∈ ((cfg0.win 2).blk t).view.set := by
  have hN : cfg0.N = 160 := N_0
  have hi0 : (i 0).val < 8 := (i 0).isLt
  have hi1 : (i 1).val < 1 := (i 1).isLt
  have hi2 : (i 2).val < 3 := (i 2).isLt
  have hlt : 80 * ((i 0).val / 4) + 79 < cfg0.N := by omega
  refine ⟨⟨80 * ((i 0).val / 4) + 79, hlt⟩, (flush0_2 _).mpr (by show (80 * ((i 0).val / 4) + 79) % 80 = 79; omega), ?_⟩
  obtain ⟨-, -, -, -, -, -, e0, e1, e2⟩ := idx_facts ⟨80 * ((i 0).val / 4) + 79, hlt⟩
  have e0' : win0_2.index ⟨80 * ((i 0).val / 4) + 79, hlt⟩ (0 : Fin 3) = (i 0).val / 4 := by
    rw [e0]; show (80 * ((i 0).val / 4) + 79) / 80 = (i 0).val / 4; omega
  show i ∈ ((View.whole main_v0_1).slice (win0_2.rect ⟨80 * ((i 0).val / 4) + 79, hlt⟩)).set
  rw [View.set_slice_whole, Rect.mem_set_unit]
  intro a
  match a with
  | ⟨0, _⟩ =>
    show win0_2.index ⟨80 * ((i 0).val / 4) + 79, hlt⟩ (0 : Fin 3) * 4 ≤ (i 0).val
      ∧ (i 0).val < win0_2.index ⟨80 * ((i 0).val / 4) + 79, hlt⟩ (0 : Fin 3) * 4 + 4
    omega
  | ⟨1, _⟩ =>
    show win0_2.index ⟨80 * ((i 0).val / 4) + 79, hlt⟩ (1 : Fin 3) * 1 ≤ (i 1).val
      ∧ (i 1).val < win0_2.index ⟨80 * ((i 0).val / 4) + 79, hlt⟩ (1 : Fin 3) * 1 + 1
    omega
  | ⟨2, _⟩ =>
    show win0_2.index ⟨80 * ((i 0).val / 4) + 79, hlt⟩ (2 : Fin 3) * 3 ≤ (i 2).val
      ∧ (i 2).val < win0_2.index ⟨80 * ((i 0).val / 4) + 79, hlt⟩ (2 : Fin 3) * 3 + 3
    omega

/-- So the second result array ends holding any G the last steps' running blocks agree with. -/
theorem final_2_of (c : Dev nD) (G : Buf (Elt Ideal) ((c : Thread nD τ).loc main_v0_1))
    (hG : ∀ (t : Fin cfg0.N), t.val % 80 = 79 → ∀ (j : S4x1x3.Idx) (i : S8x1x3.Idx),
      (i 0).val = 4 * (t.val / 80) + (j 0).val → (i 2).val = (j 2).val → (outsAt0 V c t.val t.isLt).2 j = G i) :
    (dat0 V c).arrAt 2 cfg0.N = G :=
  (dat0 V c).arrAt_eq_of_cover 2 G (flushed_2_of V c G hG) cover_2

/-- The second result array is the array of maxima. -/
theorem maxFinal (c : Dev nD) : (dat0 V c).arrAt 2 cfg0.N = maxArr V c :=
  final_2_of V c (maxArr V c) (last_max_at V c)

/-- Entry (b, 0, ch) of the second result array: the greatest of points(b, ·, ch) over the 400000 points, from −∞. -/
theorem maxArray (c : Dev nD) (b : Fin 8) (ch : Fin 3) :
    (dat0 (F := Ideal) V c).arrAt 2 cfg0.N (ix3 b (0 : Fin 1) ch) = Cert.Spec.rawMax (V c main_arg0) b ch :=
  congrFun (maxFinal V c) (ix3 b (0 : Fin 1) ch)

end FinalMax

end Cert.KernelIdeal.Region0

end
-- ==== Proof.LibBitCast.lean ====
/-
  A comparison's truth value as a float, by either spelling.

  A float comparison yields a one-bit word. One program turns it into a float by reading the bit as an unsigned
  integer (`uitofp`); another first widens the bit with zeros to 32 bits and reads the result as a SIGNED integer
  (`extui` then `sitofp`). A zero-extended bit is 0 or 1, far below 2^31, so its signed and unsigned readings
  agree, and at the ideal instance both conversions are the exact value of the integer: the two spellings are
  one function, for any float format and any shape.
-/
import Idealize.ShloMosaic.PureOps.Ideal
import Idealize.ShloMosaic.Lib.ValueIdx

noncomputable section

namespace LibBitCast

open Idealize.ShloMosaic

/-- The zero-extension of a bit to 32 bits reads the same signed as the bit reads unsigned. -/
theorem bit_toInt_eq_toNat : ∀ b : BitVec 1, (b.setWidth 32).toInt = (b.toNat : Int) := by decide

/-- One element: `sitofp` of the widened bit is `uitofp` of the bit, at the ideal instance. -/
theorem sitofp_extui_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [bit_toInt_eq_toNat b, Int.cast_natCast]

/-- Whole vectors of any shape: widening then reading signed is reading unsigned. -/
theorem sitofp_extui_eq_uitofp {s : Shape} (φ : FTy) (v : IVec s 1) (h : 1 < 32) :
    (sitofp φ (extui 32 v h) : FVec Ideal s φ) = uitofp φ v :=
  funext fun i => sitofp_extui_bit φ (v i)

end LibBitCast

end
-- ==== Proof.Region1.lean ====
/-
  The second region of the program read as values: its three output arrays, entry by entry.

  The region walks the 400000 points of every sample in 625 steps of 640 points. At a step it holds the [8,640,4] block of
  points, the [8,640,3] block of features, the [8,640] block of mask words and the whole [8,3] offset and noise arrays, and
  it writes one block of each output with a single store. For the point r of sample b in the block:
    the shifted coordinate on channel ch < 3 is 20·points(b,r,ch) + offset(b,ch);
    the valid bit is (least coordinate ≥ 0) and (greatest coordinate < 4096) and (mask word > 0), the two extremes being
      the folds of min and of max over the three channels from the infinities;
    the location is (the three coordinates cast to integers, then the sample number b) times the valid bit widened to a word;
    the feature is (feature + noise(b,ch)) times the valid bit read as 0 or 1: the widened bit read as a signed integer
      is the bit read unsigned;
    the new mask word is the old one times the widened valid bit.
  Entry (b, r, ·) of the step-t block of an array laid along the points is entry (b, 640·t + r, ·) of the array, and the
  blocks of the 625 steps tile each output: point n of the array lies in the block of step n / 640. So each output array ends
  holding the specification's function of the arrays the region was entered with.
-/
import proofs.«168431_j2327872274833_2_alg».proof.Proof.Gen.KernelIdeal.Frame
import proofs.«168431_j2327872274833_2_alg».proof.Proof.Spec
import proofs.«168431_j2327872274833_2_alg».proof.Proof.LibMinReduce
import proofs.«168431_j2327872274833_2_alg».proof.Proof.LibBitCast
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a rank-3 rectangle, however spelt. -/
theorem hz3 : (![0, 0, 0] : Fin 3 → Nat) = fun _ => 0 := funext fun a => by fin_cases a <;> rfl
/-- The zero offsets of a rank-2 rectangle, however spelt. -/
theorem hz2 : (![0, 0] : Fin 2 → Nat) = fun _ => 0 := funext fun a => by fin_cases a <;> rfl

section Body
variable {F : FTy → Type} [FloatOps F]

/-- The mask output's block after the body is its one store's value: the mask block times the widened valid bits. -/
theorem out7_eq (x0 : Vec F S8x640x4 .f32) (x1 : Vec F S8x640x3 .f32) (x2 : Vec F S8x640 .i32) (x3 : Vec F S8x3 .f32) (x4 : Vec F S8x3 .f32) :
    out1_7 x0 x1 x2 x3 x4 = k1_pay2 (k1_pay4 x2) (k1_pay6 x0 x3 x2) := by
  unfold out1_7
  rw [View.canon_unit_zero hz2]
  simp only [View.ld_unit_zero (S := S8x640x4) hz3, View.ld_unit_zero (S := S8x3) hz2, View.ld_unit_zero (S := S8x640) hz2]

/-- The feature output's block after the body is its one store's value: (features + noise) times the valid bits as floats. -/
theorem out6_eq (x0 : Vec F S8x640x4 .f32) (x1 : Vec F S8x640x3 .f32) (x2 : Vec F S8x640 .i32) (x3 : Vec F S8x3 .f32) (x4 : Vec F S8x3 .f32) :
    out1_6 x0 x1 x2 x3 x4 = k1_pay1 (k1_pay8 x4 x1) (k1_pay9 x0 x3 x2) := by
  unfold out1_6
  rw [View.canon_unit_zero hz3]
  simp only [View.ld_unit_zero (S := S8x640x4) hz3, View.ld_unit_zero (S := S8x640x3) hz3, View.ld_unit_zero (S := S8x3) hz2, View.ld_unit_zero (S := S8x640) hz2]

/-- The location output's block after the body is its one store's value. -/
theorem out5_eq (x0 : Vec F S8x640x4 .f32) (x1 : Vec F S8x640x3 .f32) (x2 : Vec F S8x640 .i32) (x3 : Vec F S8x3 .f32) (x4 : Vec F S8x3 .f32) :
    out1_5 x0 x1 x2 x3 x4 = k1_pay7 x0 x3 x2 := by
  unfold out1_5
  rw [View.canon_unit_zero hz3]
  simp only [View.ld_unit_zero (S := S8x640x4) hz3, View.ld_unit_zero (S := S8x3) hz2, View.ld_unit_zero (S := S8x640) hz2]

end Body

/-! ## Layout operations of the body, read at coordinates -/

section Layout
variable {α : Type}

/-- The first three channels of a [8,640,4] block. -/
theorem slice_apply (x : S8x640x4.Idx → α) (b : Fin 8) (r : Fin 640) (ch : Fin 3) :
    extractStridedSlice S8x640x3 ![0, 0, 0] x slices_S8x640x4_o0_0_0_S8x640x3 (ix3 b r ch) = x (ix3 b r (Cert.Spec.ch4 ch)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- A per-sample, per-channel [8,3] array viewed [8,1,3] and repeated along the 640 points. -/
theorem rowBcast_apply (x : S8x3.Idx → α) (b : Fin 8) (r : Fin 640) (ch : Fin 3) :
    broadcastTo S8x640x3 (shapeCast S8x1x3 x shapeCasts_S8x3_S8x1x3) broadcasts_S8x1x3_S8x640x3 (ix3 b r ch) = x (ix2 b ch) := by
  refine (broadcastTo_apply _ _ (ix3 b r ch) (ix3 b (0 : Fin 1) ch) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show b.val * 3 + ch.val = (b.val * 1 + 0) * 3 + ch.val
    omega

/-- A per-point [8,640] array viewed [8,640,1] and repeated along three channels. -/
theorem colBcast3_apply (x : S8x640.Idx → α) (b : Fin 8) (r : Fin 640) (ch : Fin 3) :
    broadcastTo S8x640x3 (shapeCast S8x640x1 x shapeCasts_S8x640_S8x640x1) broadcasts_S8x640x1_S8x640x3 (ix3 b r ch) = x (ix2 b r) := by
  refine (broadcastTo_apply _ _ (ix3 b r ch) (ix3 b r (0 : Fin 1)) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show b.val * 640 + r.val = (b.val * 640 + r.val) * 1 + 0
    omega

/-- The same, repeated along four channels. -/
theorem colBcast4_apply (x : S8x640.Idx → α) (b : Fin 8) (r : Fin 640) (ch : Fin 4) :
    broadcastTo S8x640x4 (shapeCast S8x640x1 x shapeCasts_S8x640_S8x640x1) broadcasts_S8x640x1_S8x640x4 (ix3 b r ch) = x (ix2 b r) := by
  refine (broadcastTo_apply _ _ (ix3 b r ch) (ix3 b r (0 : Fin 1)) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show b.val * 640 + r.val = (b.val * 640 + r.val) * 1 + 0
    omega

end Layout

/-! ## The payloads at an index, at the ideal instance -/

/-- The shifted coordinate of a block's point. -/
theorem pay3_apply (x0 : Vec Ideal S8x640x4 .f32) (x3 : Vec Ideal S8x3 .f32) (b : Fin 8) (r : Fin 640) (ch : Fin 3) :
    k1_pay3 (F := Ideal) x0 x3 (ix3 b r ch)
      = Ideal.ofBits .f32 0x41A00000#32 * x0 (ix3 b r (Cert.Spec.ch4 ch)) + x3 (ix2 b ch) := by
  unfold k1_pay3
  show Ideal.ofBits .f32 0x41A00000#32 * extractStridedSlice S8x640x3 ![0, 0, 0] x0 slices_S8x640x4_o0_0_0_S8x640x3 (ix3 b r ch)
      + broadcastTo S8x640x3 (shapeCast S8x1x3 (shapeCast S8x3 x3 shapeCasts_S8x3_S8x3) shapeCasts_S8x3_S8x1x3) broadcasts_S8x1x3_S8x640x3 (ix3 b r ch) = _
  rw [slice_apply, shapeCast_self, rowBcast_apply]

/-- A channel minimum of a [8,640,3] block at a point: the fold of min over the three channels from the +∞ word. -/
theorem chanMin_apply (src : FVec Ideal S8x640x3 .f32) (b : Fin 8) (r : Fin 640) :
    multiReduction (F := Ideal) .minimumf [2] S8x640 src 0x7F800000#32 reduces_S8x640x3_S8x640 (.inl rfl) rfl (ix2 b r)
      = (Finset.univ : Finset (Fin 3)).fold min (Ideal.ofBits .f32 0x7F800000#32) (fun ch => src (ix3 b r ch)) := by
  refine (Ideal.multiReduction_minimumf_single src 0x7F800000#32 reduces_S8x640x3_S8x640 (.inl rfl) rfl (ix2 b r)).trans ?_
  show (Finset.univ : Finset (Fin 3)).fold min (Ideal.ofBits .f32 0x7F800000#32) (fun ch => src (reduces_S8x640x3_S8x640.lift (ix2 b r) ch)) = _
  refine congrArg (fun f => (Finset.univ : Finset (Fin 3)).fold min (Ideal.ofBits .f32 0x7F800000#32) f) (funext fun ch => congrArg src ?_)
  funext a; apply Fin.ext
  match a with
  | ⟨0, _⟩ => rfl
  | ⟨1, _⟩ => rfl
  | ⟨2, _⟩ => rfl

/-- A channel maximum likewise, from the −∞ word. -/
theorem chanMax_apply (src : FVec Ideal S8x640x3 .f32) (b : Fin 8) (r : Fin 640) :
    multiReduction (F := Ideal) .maximumf [2] S8x640 src 0xFF800000#32 reduces_S8x640x3_S8x640 (.inl rfl) rfl (ix2 b r)
      = (Finset.univ : Finset (Fin 3)).fold max (Ideal.ofBits .f32 0xFF800000#32) (fun ch => src (ix3 b r ch)) := by
  refine (Ideal.multiReduction_maximumf_single src 0xFF800000#32 reduces_S8x640x3_S8x640 (.inl rfl) rfl (ix2 b r)).trans ?_
  show (Finset.univ : Finset (Fin 3)).fold max (Ideal.ofBits .f32 0xFF800000#32) (fun ch => src (reduces_S8x640x3_S8x640.lift (ix2 b r) ch)) = _
  refine congrArg (fun f => (Finset.univ : Finset (Fin 3)).fold max (Ideal.ofBits .f32 0xFF800000#32) f) (funext fun ch => congrArg src ?_)
  funext a; apply Fin.ext
  match a with
  | ⟨0, _⟩ => rfl
  | ⟨1, _⟩ => rfl
  | ⟨2, _⟩ => rfl

/-- The valid bit of a block's point, from its three shifted coordinates and its mask word. -/
def validOf (cd : Fin 3 → EReal) (mw : BitVec 32) : BitVec 1 :=
  IntOp.andi
    (IntOp.andi
      (FloatOps.cmpf (F := Ideal) (φ := .f32) .oge
        ((Finset.univ : Finset (Fin 3)).fold min (Ideal.ofBits .f32 0x7F800000#32) cd) (Ideal.ofBits .f32 0x00000000#32))
      (FloatOps.cmpf (F := Ideal) (φ := .f32) .olt
        ((Finset.univ : Finset (Fin 3)).fold max (Ideal.ofBits .f32 0xFF800000#32) cd) (Ideal.ofBits .f32 0x45800000#32)))
    (IntOp.cmpi .sgt mw 0#32)

/-- The body's valid bit at a point of the block is that function of the point's three shifted coordinates and mask word:
    the two channel reductions are the folds over the three channels, the comparisons and conjunctions are pointwise. -/
theorem pay5_apply (x0 : Vec Ideal S8x640x4 .f32) (x3 : Vec Ideal S8x3 .f32) (x2 : Vec Ideal S8x640 .i32) (b : Fin 8) (r : Fin 640) :
    k1_pay5 (F := Ideal) x0 x3 x2 (ix2 b r)
      = validOf (fun ch => k1_pay3 (F := Ideal) x0 x3 (ix3 b r ch)) (x2 (ix2 b r)) := by
  unfold k1_pay5 k1_pay4 validOf
  show IntOp.andi
      (IntOp.andi
        (FloatOps.cmpf (F := Ideal) (φ := .f32) .oge
          (multiReduction (F := Ideal) .minimumf [2] S8x640 (k1_pay3 (F := Ideal) x0 x3) 0x7F800000#32 reduces_S8x640x3_S8x640 (.inl rfl) rfl (ix2 b r))
          (Ideal.ofBits .f32 0x00000000#32))
        (FloatOps.cmpf (F := Ideal) (φ := .f32) .olt
          (multiReduction (F := Ideal) .maximumf [2] S8x640 (k1_pay3 (F := Ideal) x0 x3) 0xFF800000#32 reduces_S8x640x3_S8x640 (.inl rfl) rfl (ix2 b r))
          (Ideal.ofBits .f32 0x45800000#32)))
      (IntOp.cmpi .sgt (shapeCast S8x640 x2 shapeCasts_S8x640_S8x640 (ix2 b r)) 0#32) = _
  rw [chanMin_apply, chanMax_apply, shapeCast_self]

/-! ## The three results at a block's point, from the block entries they depend on

Each result at point r of sample b depends on the block of points only through the four entries (b, r, ·), on the
offset and noise arrays through row b, and on the mask block through entry (b, r). -/

/-- Fed the specification's coordinates and mask word, the block's valid bit is the specification's. -/
theorem validOf_eq (pts : FVec Ideal Cert.Spec.SPts .f32) (off : FVec Ideal Cert.Spec.SOff .f32) (msk : IVec Cert.Spec.SMsk 32)
    (b : Fin 8) (n : Fin 400000) (cd : Fin 3 → EReal) (mw : BitVec 32)
    (hcd : ∀ ch, cd ch = Cert.Spec.coord pts off b n ch) (hm : mw = msk (ix2 b n)) :
    validOf cd mw = Cert.Spec.valid pts off msk b n := by
  obtain rfl : cd = fun ch => Cert.Spec.coord pts off b n ch := funext hcd
  subst hm
  rfl

section Point
variable (x0 : Vec Ideal S8x640x4 .f32) (x1 : Vec Ideal S8x640x3 .f32) (x2 : Vec Ideal S8x640 .i32) (x3 x4 : Vec Ideal S8x3 .f32)
variable (pts : FVec Ideal Cert.Spec.SPts .f32) (off : FVec Ideal Cert.Spec.SOff .f32) (msk : IVec Cert.Spec.SMsk 32)
variable (b : Fin 8) (r : Fin 640) (n : Fin 400000)

/-- The shifted coordinate at a block's point is the specification's at the array's point, when the block's entries are
    the array's there. -/
theorem coord_point (h0 : ∀ c4 : Fin 4, x0 (ix3 b r c4) = pts (ix3 b n c4)) (h3 : ∀ ch : Fin 3, x3 (ix2 b ch) = off (ix2 b ch)) (ch : Fin 3) :
    k1_pay3 (F := Ideal) x0 x3 (ix3 b r ch) = Cert.Spec.coord pts off b n ch := by
  rw [pay3_apply, h0, h3]; rfl

/-- The valid bit likewise. -/
theorem valid_point (h0 : ∀ c4 : Fin 4, x0 (ix3 b r c4) = pts (ix3 b n c4)) (h3 : ∀ ch : Fin 3, x3 (ix2 b ch) = off (ix2 b ch))
    (h2 : x2 (ix2 b r) = msk (ix2 b n)) :
    k1_pay5 (F := Ideal) x0 x3 x2 (ix2 b r) = Cert.Spec.valid pts off msk b n :=
  (pay5_apply x0 x3 x2 b r).trans (validOf_eq pts off msk b n _ _ (coord_point x0 x3 pts off b r n h0 h3) h2)

/-- The new mask word: the old word times the widened valid bit. -/
theorem mask_point (h0 : ∀ c4 : Fin 4, x0 (ix3 b r c4) = pts (ix3 b n c4)) (h3 : ∀ ch : Fin 3, x3 (ix2 b ch) = off (ix2 b ch))
    (h2 : x2 (ix2 b r) = msk (ix2 b n)) :
    k1_pay2 (k1_pay4 x2) (k1_pay6 (F := Ideal) x0 x3 x2) (ix2 b r) = Cert.Spec.newMask pts off msk b n := by
  have hv := valid_point x0 x2 x3 pts off msk b r n h0 h3 h2
  unfold k1_pay2 k1_pay4 k1_pay6
  show IntOp.muli (shapeCast S8x640 x2 shapeCasts_S8x640_S8x640 (ix2 b r)) ((k1_pay5 (F := Ideal) x0 x3 x2 (ix2 b r)).setWidth 32) = _
  rw [shapeCast_self, hv, h2]
  rfl

/-- The feature: the noise row repeated along the points and added, the valid bit widened, read signed (which is reading
    the bit unsigned), repeated along the channels and multiplied. -/
theorem feats_point (fea : FVec Ideal Cert.Spec.SFea .f32) (noise : FVec Ideal Cert.Spec.SOff .f32) (ch : Fin 3)
    (h0 : ∀ c4 : Fin 4, x0 (ix3 b r c4) = pts (ix3 b n c4)) (h3 : ∀ ch : Fin 3, x3 (ix2 b ch) = off (ix2 b ch))
    (h2 : x2 (ix2 b r) = msk (ix2 b n)) (h1 : x1 (ix3 b r ch) = fea (ix3 b n ch)) (h4 : x4 (ix2 b ch) = noise (ix2 b ch)) :
    k1_pay1 (k1_pay8 (F := Ideal) x4 x1) (k1_pay9 (F := Ideal) x0 x3 x2) (ix3 b r ch) = Cert.Spec.feats pts off msk fea noise b n ch := by
  have hv := valid_point x0 x2 x3 pts off msk b r n h0 h3 h2
  unfold k1_pay1 k1_pay8 k1_pay9
  show (x1 (ix3 b r ch) + broadcastTo S8x640x3 (shapeCast S8x1x3 x4 shapeCasts_S8x3_S8x1x3) broadcasts_S8x1x3_S8x640x3 (ix3 b r ch))
      * broadcastTo S8x640x3 (shapeCast S8x640x1 (sitofp (F := Ideal) .f32 (extui 32 (k1_pay5 (F := Ideal) x0 x3 x2) natLt_1_32)) shapeCasts_S8x640_S8x640x1)
          broadcasts_S8x640x1_S8x640x3 (ix3 b r ch) = _
  rw [rowBcast_apply, colBcast3_apply]
  show (x1 (ix3 b r ch) + x4 (ix2 b ch)) * FloatOps.sitofp (F := Ideal) .f32 ((k1_pay5 (F := Ideal) x0 x3 x2 (ix2 b r)).setWidth 32) = _
  rw [LibBitCast.sitofp_extui_bit, hv, h1, h4]
  rfl

/-- Three integer channels followed by one more along the last axis, read at a point. -/
theorem concat_apply (u : IVec S8x640x3 32) (w : IVec S8x640x1 32) (c4 : Fin 4) :
    concatenate S8x640x4 2 [⟨S8x640x3, u⟩, ⟨S8x640x1, w⟩] concatenates_S8x640x3_S8x640x1_S8x640x4_d2 (ix3 b r c4)
      = if h : c4.val < 3 then u (ix3 b r ⟨c4.val, h⟩) else w (ix3 b r (0 : Fin 1)) := by
  by_cases h : c4.val < 3
  · rw [dif_pos h]
    exact concatenate_pair_apply_left (2 : Fin 3) u w concatenates_S8x640x3_S8x640x1_S8x640x4_d2 (ix3 b r c4) rfl (ix3 b r ⟨c4.val, h⟩)
      (fun a => by
        match a with
        | ⟨0, _⟩ => rfl
        | ⟨1, _⟩ => rfl
        | ⟨2, _⟩ => rfl)
  · rw [dif_neg h]
    refine concatenate_pair_apply_right (2 : Fin 3) u w concatenates_S8x640x3_S8x640x1_S8x640x4_d2 (ix3 b r c4) rfl rfl (ix3 b r (0 : Fin 1))
      (fun a => ?_) ?_
    · match a with
      | ⟨0, _⟩ => exact fun _ => rfl
      | ⟨1, _⟩ => exact fun _ => rfl
      | ⟨2, _⟩ => exact fun hne => absurd rfl hne
    · show 0 + 3 = c4.val
      have := c4.isLt
      omega

/-- The location: channels 0, 1, 2 are the coordinates cast to integers, channel 3 is the sample number (the count along
    axis 0), each times the widened valid bit repeated along the four channels. -/
theorem locs_point (c4 : Fin 4)
    (h0 : ∀ c4 : Fin 4, x0 (ix3 b r c4) = pts (ix3 b n c4)) (h3 : ∀ ch : Fin 3, x3 (ix2 b ch) = off (ix2 b ch))
    (h2 : x2 (ix2 b r) = msk (ix2 b n)) :
    k1_pay7 (F := Ideal) x0 x3 x2 (ix3 b r c4) = Cert.Spec.locs pts off msk b n c4 := by
  have hv := valid_point x0 x2 x3 pts off msk b r n h0 h3 h2
  unfold k1_pay7 k1_pay6
  show IntOp.muli
      (concatenate S8x640x4 2 [⟨S8x640x3, fptosi (F := Ideal) 32 (k1_pay3 (F := Ideal) x0 x3)⟩, ⟨S8x640x1, iota .tc S8x640x1 32 [0] iota_S8x640x1_d0_w32⟩]
        concatenates_S8x640x3_S8x640x1_S8x640x4_d2 (ix3 b r c4))
      (broadcastTo S8x640x4 (shapeCast S8x640x1 (extui 32 (k1_pay5 (F := Ideal) x0 x3 x2) natLt_1_32) shapeCasts_S8x640_S8x640x1)
        broadcasts_S8x640x1_S8x640x4 (ix3 b r c4)) = _
  rw [concat_apply, colBcast4_apply]
  show IntOp.muli
      (if h : c4.val < 3 then FloatOps.fptosi (F := Ideal) (φ := .f32) 32 (k1_pay3 (F := Ideal) x0 x3 (ix3 b r ⟨c4.val, h⟩))
        else iota .tc S8x640x1 32 [0] iota_S8x640x1_d0_w32 (ix3 b r (0 : Fin 1)))
      ((k1_pay5 (F := Ideal) x0 x3 x2 (ix2 b r)).setWidth 32) = _
  rw [hv, iota_single_apply]
  unfold Cert.Spec.locs
  refine congrArg (fun u => IntOp.muli u ((Cert.Spec.valid pts off msk b n).setWidth 32)) ?_
  by_cases h : c4.val < 3
  · rw [dif_pos h, dif_pos h, coord_point x0 x3 pts off b r n h0 h3]
  · rw [dif_neg h, dif_neg h]

end Point

/-! ## From blocks to arrays

Step t of the grid holds points 640·t … 640·t + 639 of every sample: an entry (b, r, ·) of a block of the points, the
features or an output is entry (b, 640·t + r, ·) of its array; the offset and the noise blocks are their whole arrays. -/

section Arrays
variable (V : (c : Dev nD) → (b : Ref sig .tc) → Buf (Elt Ideal) ((c : Thread nD τ).loc b))

/-- The windows' block indices at a step, decided over the grid: zero on the sample and channel axes, the step's number
    on the axis of points, zero everywhere for the two whole-array windows. -/
theorem idx_facts : ∀ t : Fin cfg1.N,
    (win1_0.index t (0 : Fin 3) = 0 ∧ win1_0.index t (1 : Fin 3) = t.val ∧ win1_0.index t (2 : Fin 3) = 0)
    ∧ (win1_1.index t (0 : Fin 3) = 0 ∧ win1_1.index t (1 : Fin 3) = t.val ∧ win1_1.index t (2 : Fin 3) = 0)
    ∧ (win1_2.index t (0 : Fin 2) = 0 ∧ win1_2.index t (1 : Fin 2) = t.val)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = 0 ∧ win1_5.index t (1 : Fin 3) = t.val ∧ win1_5.index t (2 : Fin 3) = 0)
    ∧ (win1_6.index t (0 : Fin 3) = 0 ∧ win1_6.index t (1 : Fin 3) = t.val ∧ win1_6.index t (2 : Fin 3) = 0)
    ∧ (win1_7.index t (0 : Fin 2) = 0 ∧ win1_7.index t (1 : Fin 2) = t.val) :=
  (by decide +kernel : ∀ t : Fin grid1.N, _)

/-- The point of the array that entry r of the step-t block is: 640·t + r. -/
def pointOf (t : Fin cfg1.N) (r : Fin 640) : Fin 400000 :=
  ⟨640 * t.val + r.val, by have h : t.val < 625 := N_1 ▸ t.isLt; have := r.isLt; omega⟩

/-- Entry (b, r, ch) of the step-t block of points is entry (b, 640·t + r, ch) of the points array. -/
theorem iblk0_apply (c : Dev nD) (t : Fin cfg1.N) (b : Fin 8) (r : Fin 640) (c4 : Fin 4) :
    (iblk1 V c 0 t : Vec Ideal S8x640x4 .f32) (ix3 b r c4) = (V c main_arg0 : S8x400000x4.Idx → EReal) (ix3 b (pointOf t r) c4) := by
  obtain ⟨⟨e0, e1, e2⟩, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 8 + 1 * b.val = b.val; rw [e0]; omega
  | ⟨1, _⟩ => show win1_0.index t (1 : Fin 3) * 640 + 1 * r.val = 640 * t.val + r.val; rw [e1]; omega
  | ⟨2, _⟩ => show win1_0.index t (2 : Fin 3) * 4 + 1 * c4.val = c4.val; rw [e2]; omega

/-- Entry (b, r, ch) of the step-t block of features is entry (b, 640·t + r, ch) of the features array. -/
theorem iblk1_apply (c : Dev nD) (t : Fin cfg1.N) (b : Fin 8) (r : Fin 640) (ch : Fin 3) :
    (iblk1 V c 1 t : Vec Ideal S8x640x3 .f32) (ix3 b r ch) = (V c main_arg1 : S8x400000x3.Idx → EReal) (ix3 b (pointOf t r) ch) := by
  obtain ⟨-, ⟨e0, e1, e2⟩, -⟩ := idx_facts t
  unfold iblk1
  rw [View.read_apply]
  show V c main_arg1 _ = V c main_arg1 _
  refine congrArg (V c main_arg1) (funext fun a => Fin.ext ?_)
  match a with
  | ⟨0, _⟩ => show win1_1.index t (0 : Fin 3) * 8 + 1 * b.val = b.val; rw [e0]; omega
  | ⟨1, _⟩ => show win1_1.index t (1 : Fin 3) * 640 + 1 * r.val = 640 * t.val + r.val; rw [e1]; omega
  | ⟨2, _⟩ => show win1_1.index t (2 : Fin 3) * 3 + 1 * ch.val = ch.val; rw [e2]; omega

/-- Entry (b, r) of the step-t block of mask words is entry (b, 640·t + r) of the mask array. -/
theorem iblk2_apply (c : Dev nD) (t : Fin cfg1.N) (b : Fin 8) (r : Fin 640) :
    (iblk1 V c 2 t : Vec Ideal S8x640 .i32) (ix2 b r) = (V c main_v25 : S8x400000.Idx → BitVec 32) (ix2 b (pointOf t r)) := by
  obtain ⟨-, -, ⟨e0, e1⟩, -⟩ := idx_facts t
  unfold iblk1
  rw [View.read_apply]
  show V c main_v25 _ = V c main_v25 _
  refine congrArg (V c main_v25) (funext fun a => Fin.ext ?_)
  match a with
  | ⟨0, _⟩ => show win1_2.index t (0 : Fin 2) * 8 + 1 * b.val = b.val; rw [e0]; omega
  | ⟨1, _⟩ => show win1_2.index t (1 : Fin 2) * 640 + 1 * r.val = 640 * t.val + r.val; rw [e1]; omega

/-- The offset block at every step is the whole offset array. -/
theorem iblk3_apply (c : Dev nD) (t : Fin cfg1.N) (b : Fin 8) (ch : Fin 3) :
    (iblk1 V c 3 t : Vec Ideal S8x3 .f32) (ix2 b ch) = (V c main_v24 : S8x3.Idx → EReal) (ix2 b ch) := by
  obtain ⟨-, -, -, ⟨e0, e1⟩, -⟩ := idx_facts t
  unfold iblk1
  rw [View.read_apply]
  show V c main_v24 _ = V c main_v24 _
  refine congrArg (V c main_v24) (funext fun a => Fin.ext ?_)
  match a with
  | ⟨0, _⟩ => show win1_3.index t (0 : Fin 2) * 8 + 1 * b.val = b.val; rw [e0]; omega
  | ⟨1, _⟩ => show win1_3.index t (1 : Fin 2) * 3 + 1 * ch.val = ch.val; rw [e1]; omega

/-- The noise block at every step is the whole noise array. -/
theorem iblk4_apply (c : Dev nD) (t : Fin cfg1.N) (b : Fin 8) (ch : Fin 3) :
    (iblk1 V c 4 t : Vec Ideal S8x3 .f32) (ix2 b ch) = (V c main_arg4 : S8x3.Idx → EReal) (ix2 b ch) := by
  obtain ⟨-, -, -, -, ⟨e0, e1⟩, -⟩ := idx_facts t
  unfold iblk1
  rw [View.read_apply]
  show V c main_arg4 _ = V c main_arg4 _
  refine congrArg (V c main_arg4) (funext fun a => Fin.ext ?_)
  match a with
  | ⟨0, _⟩ => show win1_4.index t (0 : Fin 2) * 8 + 1 * b.val = b.val; rw [e0]; omega
  | ⟨1, _⟩ => show win1_4.index t (1 : Fin 2) * 3 + 1 * ch.val = ch.val; rw [e1]; omega

/-! ### The new mask -/

/-- The new mask as a whole [8, 400000] array. -/
def maskG (c : Dev nD) : S8x400000.Idx → BitVec 32 :=
  fun i => Cert.Spec.newMask (V c main_arg0) (V c main_v24) (V c main_v25) (i 0) (i 1)

/-- What step t writes back of the mask output is its block of the whole-array function. -/
theorem flushed7_eq (c : Dev nD) (t : Fin cfg1.N) :
    (dat1 (F := Ideal) V c).flushed 7 t = ((cfg1.win 7).blk t).view.read (Elt Ideal) (maskG V c) := by
  show (cfg1.win 7).cut (grid1.coords t) ((dat1 (F := Ideal) V c).after 7 t) = _
  rw [after1_7, out7_eq]
  obtain ⟨-, -, -, -, -, -, -, ⟨e0, e1⟩⟩ := idx_facts t
  funext j
  obtain ⟨b, r, rfl⟩ : ∃ (b : Fin 8) (r : Fin 640), j = ix2 b r := ⟨j 0, j 1, eq_ix2 j⟩
  rw [View.read_apply]
  have hemb : ((cfg1.win 7).blk t).view.emb (ix2 b r) = (ix2 b (pointOf t r) : S8x400000.Idx) := by
    funext a; apply Fin.ext
    match a with
    | ⟨0, _⟩ => show win1_7.index t (0 : Fin 2) * 8 + 1 * b.val = b.val; rw [e0]; omega
    | ⟨1, _⟩ => show win1_7.index t (1 : Fin 2) * 640 + 1 * r.val = 640 * t.val + r.val; rw [e1]; omega
  rw [hemb]
  exact mask_point (iblk1 V c 0 t) (iblk1 V c 2 t) (iblk1 V c 3 t) (V c main_arg0) (V c main_v24) (V c main_v25) b r (pointOf t r)
    (fun c4 => iblk0_apply V c t b r c4) (fun ch => iblk3_apply V c t b ch) (iblk2_apply V c t b r)

/-- An index of the mask array is in step t's block iff each coordinate is in the block's range on its axis. -/
theorem mem_blk7 (t : Fin cfg1.N) (i : S8x400000.Idx) :
    i ∈ ((cfg1.win 7).blk t).view.set ↔ ∀ a : Fin 2, win1_7.index t a * S8x640.size a ≤ (i a).val ∧ (i a).val < win1_7.index t a * S8x640.size a + S8x640.size a := by
  show i ∈ ((View.whole main_v26_2).slice (win1_7.rect t)).set ↔ _
  rw [View.set_slice_whole, Rect.mem_set_unit]
  exact Iff.rfl

/-- Every index of the mask array is in the block of the step that holds its point: step n / 640. -/
theorem cover7 (i : S8x400000.Idx) : ∃ t : Fin cfg1.N, (cfg1.win 7).flush t = true ∧ i ∈ ((cfg1.win 7).blk t).view.set := by
  have hi0 : (i 0).val < 8 := (i 0).isLt
  have hi1 : (i 1).val < 400000 := (i 1).isLt
  have hN : cfg1.N = 625 := N_1
  obtain ⟨t, ht⟩ : ∃ t : Fin cfg1.N, t.val = (i 1).val / 640 := ⟨⟨(i 1).val / 640, by rw [hN]; omega⟩, rfl⟩
  obtain ⟨-, -, -, -, -, -, -, ⟨e0, e1⟩⟩ := idx_facts t
  refine ⟨t, flush1_7 t, ?_⟩
  rw [mem_blk7]
  intro a
  match a with
  | ⟨0, _⟩ => show win1_7.index t (0 : Fin 2) * 8 ≤ (i 0).val ∧ (i 0).val < win1_7.index t (0 : Fin 2) * 8 + 8; rw [e0]; omega
  | ⟨1, _⟩ => show win1_7.index t (1 : Fin 2) * 640 ≤ (i 1).val ∧ (i 1).val < win1_7.index t (1 : Fin 2) * 640 + 640; rw [e1, ht]; omega

/-- The mask output array after the region, entry by entry. -/
theorem maskArray (c : Dev nD) (b : Fin 8) (n : Fin 400000) :
    (dat1 (F := Ideal) V c).arrAt 7 cfg1.N (ix2 b n) = Cert.Spec.newMask (V c main_arg0) (V c main_v24) (V c main_v25) b n :=
  congrFun ((dat1 (F := Ideal) V c).arrAt_eq_of_cover 7 (maskG V c) (fun t _ => flushed7_eq V c t) cover7) (ix2 b n)

/-! ### The features -/

/-- The feature output as a whole [8, 400000, 3] array. -/
def featsG (c : Dev nD) : S8x400000x3.Idx → EReal :=
  fun i => Cert.Spec.feats (V c main_arg0) (V c main_v24) (V c main_v25) (V c main_arg1) (V c main_arg4) (i 0) (i 1) (i 2)

/-- What step t writes back of the feature output is its block of the whole-array function. -/
theorem flushed6_eq (c : Dev nD) (t : Fin cfg1.N) :
    (dat1 (F := Ideal) V c).flushed 6 t = ((cfg1.win 6).blk t).view.read (Elt Ideal) (featsG V c) := by
  show (cfg1.win 6).cut (grid1.coords t) ((dat1 (F := Ideal) V c).after 6 t) = _
  rw [after1_6, out6_eq]
  obtain ⟨-, -, -, -, -, -, ⟨e0, e1, e2⟩, -⟩ := idx_facts t
  funext j
  obtain ⟨b, r, ch, rfl⟩ : ∃ (b : Fin 8) (r : Fin 640) (ch : Fin 3), j = ix3 b r ch := ⟨j 0, j 1, j 2, eq_ix3 j⟩
  rw [View.read_apply]
  have hemb : ((cfg1.win 6).blk t).view.emb (ix3 b r ch) = (ix3 b (pointOf t r) ch : S8x400000x3.Idx) := by
    funext a; apply Fin.ext
    match a with
    | ⟨0, _⟩ => show win1_6.index t (0 : Fin 3) * 8 + 1 * b.val = b.val; rw [e0]; omega
    | ⟨1, _⟩ => show win1_6.index t (1 : Fin 3) * 640 + 1 * r.val = 640 * t.val + r.val; rw [e1]; omega
    | ⟨2, _⟩ => show win1_6.index t (2 : Fin 3) * 3 + 1 * ch.val = ch.val; rw [e2]; omega
  rw [hemb]
  exact feats_point (iblk1 V c 0 t) (iblk1 V c 1 t) (iblk1 V c 2 t) (iblk1 V c 3 t) (iblk1 V c 4 t)
    (V c main_arg0) (V c main_v24) (V c main_v25) b r (pointOf t r) (V c main_arg1) (V c main_arg4) ch
    (fun c4 => iblk0_apply V c t b r c4) (fun ch => iblk3_apply V c t b ch) (iblk2_apply V c t b r)
    (iblk1_apply V c t b r ch) (iblk4_apply V c t b ch)

/-- An index of the feature array is in step t's block iff each coordinate is in the block's range on its axis. -/
theorem mem_blk6 (t : Fin cfg1.N) (i : S8x400000x3.Idx) :
    i ∈ ((cfg1.win 6).blk t).view.set ↔ ∀ a : Fin 3, win1_6.index t a * S8x640x3.size a ≤ (i a).val ∧ (i a).val < win1_6.index t a * S8x640x3.size a + S8x640x3.size a := by
  show i ∈ ((View.whole main_v26_1).slice (win1_6.rect t)).set ↔ _
  rw [View.set_slice_whole, Rect.mem_set_unit]
  exact Iff.rfl

/-- Every index of the feature array is in the block of step n / 640. -/
theorem cover6 (i : S8x400000x3.Idx) : ∃ t : Fin cfg1.N, (cfg1.win 6).flush t = true ∧ i ∈ ((cfg1.win 6).blk t).view.set := by
  have hi0 : (i 0).val < 8 := (i 0).isLt
  have hi1 : (i 1).val < 400000 := (i 1).isLt
  have hi2 : (i 2).val < 3 := (i 2).isLt
  have hN : cfg1.N = 625 := N_1
  obtain ⟨t, ht⟩ : ∃ t : Fin cfg1.N, t.val = (i 1).val / 640 := ⟨⟨(i 1).val / 640, by rw [hN]; omega⟩, rfl⟩
  obtain ⟨-, -, -, -, -, -, ⟨e0, e1, e2⟩, -⟩ := idx_facts t
  refine ⟨t, flush1_6 t, ?_⟩
  rw [mem_blk6]
  intro a
  match a with
  | ⟨0, _⟩ => show win1_6.index t (0 : Fin 3) * 8 ≤ (i 0).val ∧ (i 0).val < win1_6.index t (0 : Fin 3) * 8 + 8; rw [e0]; omega
  | ⟨1, _⟩ => show win1_6.index t (1 : Fin 3) * 640 ≤ (i 1).val ∧ (i 1).val < win1_6.index t (1 : Fin 3) * 640 + 640; rw [e1, ht]; omega
  | ⟨2, _⟩ => show win1_6.index t (2 : Fin 3) * 3 ≤ (i 2).val ∧ (i 2).val < win1_6.index t (2 : Fin 3) * 3 + 3; rw [e2]; omega

/-- The feature output array after the region, entry by entry. -/
theorem featsArray (c : Dev nD) (b : Fin 8) (n : Fin 400000) (ch : Fin 3) :
    (dat1 (F := Ideal) V c).arrAt 6 cfg1.N (ix3 b n ch)
      = Cert.Spec.feats (V c main_arg0) (V c main_v24) (V c main_v25) (V c main_arg1) (V c main_arg4) b n ch :=
  congrFun ((dat1 (F := Ideal) V c).arrAt_eq_of_cover 6 (featsG V c) (fun t _ => flushed6_eq V c t) cover6) (ix3 b n ch)

/-! ### The integer locations -/

/-- The location output as a whole [8, 400000, 4] array. -/
def locsG (c : Dev nD) : S8x400000x4.Idx → BitVec 32 :=
  fun i => Cert.Spec.locs (V c main_arg0) (V c main_v24) (V c main_v25) (i 0) (i 1) (i 2)

/-- What step t writes back of the location output is its block of the whole-array function. -/
theorem flushed5_eq (c : Dev nD) (t : Fin cfg1.N) :
    (dat1 (F := Ideal) V c).flushed 5 t = ((cfg1.win 5).blk t).view.read (Elt Ideal) (locsG V c) := by
  show (cfg1.win 5).cut (grid1.coords t) ((dat1 (F := Ideal) V c).after 5 t) = _
  rw [after1_5, out5_eq]
  obtain ⟨-, -, -, -, -, ⟨e0, e1, e2⟩, -⟩ := idx_facts t
  funext j
  obtain ⟨b, r, c4, rfl⟩ : ∃ (b : Fin 8) (r : Fin 640) (c4 : Fin 4), j = ix3 b r c4 := ⟨j 0, j 1, j 2, eq_ix3 j⟩
  rw [View.read_apply]
  have hemb : ((cfg1.win 5).blk t).view.emb (ix3 b r c4) = (ix3 b (pointOf t r) c4 : S8x400000x4.Idx) := by
    funext a; apply Fin.ext
    match a with
    | ⟨0, _⟩ => show win1_5.index t (0 : Fin 3) * 8 + 1 * b.val = b.val; rw [e0]; omega
    | ⟨1, _⟩ => show win1_5.index t (1 : Fin 3) * 640 + 1 * r.val = 640 * t.val + r.val; rw [e1]; omega
    | ⟨2, _⟩ => show win1_5.index t (2 : Fin 3) * 4 + 1 * c4.val = c4.val; rw [e2]; omega
  rw [hemb]
  exact locs_point (iblk1 V c 0 t) (iblk1 V c 2 t) (iblk1 V c 3 t) (V c main_arg0) (V c main_v24) (V c main_v25) b r (pointOf t r) c4
    (fun c4 => iblk0_apply V c t b r c4) (fun ch => iblk3_apply V c t b ch) (iblk2_apply V c t b r)

/-- An index of the location array is in step t's block iff each coordinate is in the block's range on its axis. -/
theorem mem_blk5 (t : Fin cfg1.N) (i : S8x400000x4.Idx) :
    i ∈ ((cfg1.win 5).blk t).view.set ↔ ∀ a : Fin 3, win1_5.index t a * S8x640x4.size a ≤ (i a).val ∧ (i a).val < win1_5.index t a * S8x640x4.size a + S8x640x4.size a := by
  show i ∈ ((View.whole main_v26_0).slice (win1_5.rect t)).set ↔ _
  rw [View.set_slice_whole, Rect.mem_set_unit]
  exact Iff.rfl

/-- Every index of the location array is in the block of step n / 640. -/
theorem cover5 (i : S8x400000x4.Idx) : ∃ t : Fin cfg1.N, (cfg1.win 5).flush t = true ∧ i ∈ ((cfg1.win 5).blk t).view.set := by
  have hi0 : (i 0).val < 8 := (i 0).isLt
  have hi1 : (i 1).val < 400000 := (i 1).isLt
  have hi2 : (i 2).val < 4 := (i 2).isLt
  have hN : cfg1.N = 625 := N_1
  obtain ⟨t, ht⟩ : ∃ t : Fin cfg1.N, t.val = (i 1).val / 640 := ⟨⟨(i 1).val / 640, by rw [hN]; omega⟩, rfl⟩
  obtain ⟨-, -, -, -, -, ⟨e0, e1, e2⟩, -⟩ := idx_facts t
  refine ⟨t, flush1_5 t, ?_⟩
  rw [mem_blk5]
  intro a
  match a with
  | ⟨0, _⟩ => show win1_5.index t (0 : Fin 3) * 8 ≤ (i 0).val ∧ (i 0).val < win1_5.index t (0 : Fin 3) * 8 + 8; rw [e0]; omega
  | ⟨1, _⟩ => show win1_5.index t (1 : Fin 3) * 640 ≤ (i 1).val ∧ (i 1).val < win1_5.index t (1 : Fin 3) * 640 + 640; rw [e1, ht]; omega
  | ⟨2, _⟩ => show win1_5.index t (2 : Fin 3) * 4 ≤ (i 2).val ∧ (i 2).val < win1_5.index t (2 : Fin 3) * 4 + 4; rw [e2]; omega

/-- The location output array after the region, entry by entry. -/
theorem locsArray (c : Dev nD) (b : Fin 8) (n : Fin 400000) (ch : Fin 4) :
    (dat1 (F := Ideal) V c).arrAt 5 cfg1.N (ix3 b n ch) = Cert.Spec.locs (V c main_arg0) (V c main_v24) (V c main_v25) b n ch :=
  congrFun ((dat1 (F := Ideal) V c).arrAt_eq_of_cover 5 (locsG V c) (fun t _ => flushed5_eq V c t) cover5) (ix3 b n ch)

end Arrays

end Cert.KernelIdeal.Region1

end
-- ==== Proof.KernelBridge.lean ====
/-
  The idealized kernel's run with its four results at the specification's arrays.

  Region 0 leaves in its two [8, 1, 3] output arrays the least and the greatest raw coordinate of each sample and channel. The
  operations between the regions view them as [8, 3] and multiply by 20; since multiplication by 20 commutes with the least and
  the greatest, these are the SCALED extremes, and the chain applied to them is the specification's offset. Region 1, entered
  with the launched points, features, noise, the [8, 400000] view of the mask words and that offset, writes the specification's
  pointwise formulas block by block; the last operation flattens the new mask. So each result buffer ends at the corresponding
  array of the launched arguments.
-/
import proofs.«168431_j2327872274833_2_alg».proof.Proof.Results
import proofs.«168431_j2327872274833_2_alg».proof.Proof.KernelRun
import proofs.«168431_j2327872274833_2_alg».proof.Proof.Laws
import proofs.«168431_j2327872274833_2_alg».proof.Proof.Region0
import proofs.«168431_j2327872274833_2_alg».proof.Proof.Region1
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

/-! ## The kernel's results -/

namespace Cert.KernelIdeal.KValue

open Cert.KernelIdeal Cert.KernelIdeal.Gen Cert.KernelIdeal.RunValue Cert.Bridge

variable (mI : (ℓ : Loc nD τ sig) → Buf (Elt Ideal) ℓ) (ρ : Dev nD → PrngReg) (c : Dev nD)

/-- Region 0's minimum array, viewed [8, 3] and multiplied by 20, is the array of scaled minima: the cast reads (b, ch) at
    (b, 0, ch), region 0 leaves the raw minimum there, and 20·(the least raw coordinate) is the least scaled one. -/
theorem scaled_min : scaled ((dat0 (V0 mI ρ) c).arrAt 1 cfg0.N)
    = fun j => Cert.Spec.scaledMin (mI ((c : Thread nD τ).loc main_arg0)) (j 0) (j 1) := by
  funext j
  obtain ⟨b, ch, rfl⟩ : ∃ (b : Fin 8) (ch : Fin 3), j = ix2 b ch := ⟨j 0, j 1, eq_ix2 j⟩
  have hc : shapeCast S8x3 ((dat0 (V0 mI ρ) c).arrAt 1 cfg0.N) shapeCasts_S8x1x3_S8x3 (ix2 b ch)
      = (dat0 (V0 mI ρ) c).arrAt 1 cfg0.N (ix3 b (0 : Fin 1) ch) :=
    shapeCast_apply _ shapeCasts_S8x1x3_S8x3 (ix2 b ch) (ix3 b (0 : Fin 1) ch) (by
      rw [Shape.rowMajor_val_three, Shape.rowMajor_val_two]
      show (b.val * 1 + 0) * 3 + ch.val = b.val * 3 + ch.val
      omega)
  show Ideal.ofBits .f32 0x41A00000#32 * shapeCast S8x3 ((dat0 (V0 mI ρ) c).arrAt 1 cfg0.N) shapeCasts_S8x1x3_S8x3 (ix2 b ch) = _
  rw [hc, Cert.KernelIdeal.Region0.minArray (V0 mI ρ) c b ch]
  exact (Cert.Laws.scaledMin_eq _ b ch).symm

theorem scaled_max : scaled ((dat0 (V0 mI ρ) c).arrAt 2 cfg0.N)
    = fun j => Cert.Spec.scaledMax (mI ((c : Thread nD τ).loc main_arg0)) (j 0) (j 1) := by
  funext j
  obtain ⟨b, ch, rfl⟩ : ∃ (b : Fin 8) (ch : Fin 3), j = ix2 b ch := ⟨j 0, j 1, eq_ix2 j⟩
  have hc : shapeCast S8x3 ((dat0 (V0 mI ρ) c).arrAt 2 cfg0.N) shapeCasts_S8x1x3_S8x3 (ix2 b ch)
      = (dat0 (V0 mI ρ) c).arrAt 2 cfg0.N (ix3 b (0 : Fin 1) ch) :=
    shapeCast_apply _ shapeCasts_S8x1x3_S8x3 (ix2 b ch) (ix3 b (0 : Fin 1) ch) (by
      rw [Shape.rowMajor_val_three, Shape.rowMajor_val_two]
      show (b.val * 1 + 0) * 3 + ch.val = b.val * 3 + ch.val
      omega)
  show Ideal.ofBits .f32 0x41A00000#32 * shapeCast S8x3 ((dat0 (V0 mI ρ) c).arrAt 2 cfg0.N) shapeCasts_S8x1x3_S8x3 (ix2 b ch) = _
  rw [hc, Cert.KernelIdeal.Region0.maxArray (V0 mI ρ) c b ch]
  exact (Cert.Laws.scaledMax_eq _ b ch).symm

/-- Region 1 is entered with the offset array at the specification's offset of the launched points and random factors. -/
theorem entry_offset_eq : V6 mI ρ c main_v24
    = offsetOf (mI ((c : Thread nD τ).loc main_arg0)) (mI ((c : Thread nD τ).loc main_arg3)) := by
  rw [entry_offset, scaled_min, scaled_max]
  rfl

/-- The location result. -/
theorem locs_eq : W8 mI ρ c (Proc.devRef .tc main_v26_0)
    = locsOf (mI ((c : Thread nD τ).loc main_arg0)) (mI ((c : Thread nD τ).loc main_arg3)) (mI ((c : Thread nD τ).loc main_arg2)) := by
  rw [last_locs]
  funext i
  obtain ⟨b, n, ch, rfl⟩ : ∃ (b : Fin 8) (n : Fin 400000) (ch : Fin 4), i = ix3 b n ch := ⟨i 0, i 1, i 2, eq_ix3 i⟩
  rw [Cert.KernelIdeal.Region1.locsArray (V6 mI ρ) c b n ch, entry_points, entry_offset_eq, entry_mask]
  rfl

/-- The feature result. -/
theorem feats_eq : W8 mI ρ c (Proc.devRef .tc main_v26_1)
    = featsOf (mI ((c : Thread nD τ).loc main_arg0)) (mI ((c : Thread nD τ).loc main_arg3)) (mI ((c : Thread nD τ).loc main_arg2))
        (mI ((c : Thread nD τ).loc main_arg1)) (mI ((c : Thread nD τ).loc main_arg4)) := by
  rw [last_feats]
  funext i
  obtain ⟨b, n, ch, rfl⟩ : ∃ (b : Fin 8) (n : Fin 400000) (ch : Fin 3), i = ix3 b n ch := ⟨i 0, i 1, i 2, eq_ix3 i⟩
  rw [Cert.KernelIdeal.Region1.featsArray (V6 mI ρ) c b n ch, entry_points, entry_offset_eq, entry_mask, entry_feas, entry_noise]
  rfl

/-- The new-mask result. -/
theorem mask_eq : W8 mI ρ c (Proc.devRef .tc main_v27)
    = newMaskOf (mI ((c : Thread nD τ).loc main_arg0)) (mI ((c : Thread nD τ).loc main_arg3)) (mI ((c : Thread nD τ).loc main_arg2)) := by
  rw [last_mask]
  unfold newMaskOf
  refine congrArg (fun a => shapeCast S3200000 a shapeCasts_S8x400000_S3200000) ?_
  funext j
  obtain ⟨b, n, rfl⟩ : ∃ (b : Fin 8) (n : Fin 400000), j = ix2 b n := ⟨j 0, j 1, eq_ix2 j⟩
  rw [Cert.KernelIdeal.Region1.maskArray (V6 mI ρ) c b n, entry_points, entry_offset_eq, entry_mask]
  rfl

/-- The offset result: the last operation and region 1 leave the offset array as region 1 found it. -/
theorem offset_eq : W8 mI ρ c (Proc.devRef .tc main_v24)
    = offsetOf (mI ((c : Thread nD τ).loc main_arg0)) (mI ((c : Thread nD τ).loc main_arg3)) := by
  have h1 : W8 mI ρ c (Proc.devRef .tc main_v24) = W7 mI ρ c (Proc.devRef .tc main_v24) := by
    show StableHlo.after hostOps2 (W7 mI ρ c) (Proc.devRef .tc main_v24) = _
    after_results
  rw [h1, W7_arr mI ρ c 3, (dat1 (V6 mI ρ) c).arrAt_in 3 rfl _, A_eq1 (V6 mI ρ) c 3]
  exact entry_offset_eq mI ρ c

/-- The idealized kernel's run, its results at the specification's arrays of the launched arguments. -/
theorem run : θ_run defs (onTc (τ := τ) (main (F := Ideal))) ⟨mI, fun _ => 0, ρ⟩ (fun r => ∀ c : Dev nD,
      r.2.mem ((c.tc : Thread nD τ).loc main_v26_0)
        = locsOf (mI ((c : Thread nD τ).loc main_arg0)) (mI ((c : Thread nD τ).loc main_arg3)) (mI ((c : Thread nD τ).loc main_arg2))
      ∧ r.2.mem ((c.tc : Thread nD τ).loc main_v26_1)
        = featsOf (mI ((c : Thread nD τ).loc main_arg0)) (mI ((c : Thread nD τ).loc main_arg3)) (mI ((c : Thread nD τ).loc main_arg2))
            (mI ((c : Thread nD τ).loc main_arg1)) (mI ((c : Thread nD τ).loc main_arg4))
      ∧ r.2.mem ((c.tc : Thread nD τ).loc main_v27)
        = newMaskOf (mI ((c : Thread nD τ).loc main_arg0)) (mI ((c : Thread nD τ).loc main_arg3)) (mI ((c : Thread nD τ).loc main_arg2))
      ∧ r.2.mem ((c.tc : Thread nD τ).loc main_v24)
        = offsetOf (mI ((c : Thread nD τ).loc main_arg0)) (mI ((c : Thread nD τ).loc main_arg3))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)) :=
  (θ_run defs _ _).mono (fun _ h c =>
    ⟨(h c).1.trans (locs_eq mI ρ c), (h c).2.1.trans (feats_eq mI ρ c), (h c).2.2.1.trans (mask_eq mI ρ c),
     (h c).2.2.2.1.trans (offset_eq mI ρ c), (h c).2.2.2.2⟩) (run_last mI ρ)

end Cert.KernelIdeal.KValue

end
-- ==== Proof.RefValue.lean ====
/-
  The reference program's results, read at an index, are the specification's functions of the argument arrays.

  The reference scales the points by 20, takes each sample's per-channel extremes of the scaled points, builds the
  offset from those extremes and the random factors, shifts every scaled point, and derives the valid bit and the
  three pointwise results. Each statement below reads one of its stages at an index: the two reductions over the
  points are folds of min / max over the 400000 points; the offset is the specification's own chain of whole-array
  operations; the valid bit is the conjunction of two comparisons of a point's least and greatest coordinate and of
  the sign test of its mask word; the three results are products with that bit.
-/
import proofs.«168431_j2327872274833_2_alg».proof.Proof.RefRead
import proofs.«168431_j2327872274833_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-! ## The offset

The reference's offset chain is, operation by operation, the specification's `offsetFn` applied to the two arrays
of extremes and the random factors. -/

theorem ref_offset (x0 : (⟨S8x400000x4, .f32⟩ : BufTy).Contents (Elt Ideal)) (x3 : (⟨S8x2x3, .f32⟩ : BufTy).Contents (Elt Ideal)) :
    val_main_v22 (F := Ideal) x0 x3
      = Cert.Spec.offsetFn bcast_S_S8x3 slices_S8x2x3_S8x1x3_0_0_0 slices_S8x2x3_S8x1x3_0_1_0 shapeCasts_S8x1x3_S8x3
          (val_main_v3 (F := Ideal) x0) (val_main_v4 (F := Ideal) x0) x3 := by
  delta val_main_v22 val_main_v15 val_main_v21 val_main_v8 val_main_v14 val_main_v18 val_main_v20 val_main_v19
    val_main_v11 val_main_v13 val_main_v12 val_main_v10 val_main_v17 val_main_v7 val_main_v9 val_main_v16 val_main_v6
    val_main_v5 val_main_call0_v1 val_main_call0_v0 val_main_call1_v1 val_main_call1_v0 val_main_cst_2 val_main_cst_3
    val_main_cst_4 val_main_cst_5 val_main_cst_6 Cert.Spec.offsetFn
  rfl

/-! ## The two reductions over the points

A one-axis reduce with min (or max) at a result index is the fold over that axis's coordinates, from the initial
word, of the operand at the index with the coordinate inserted. The operand is the scaled points: the constant 20
times the first three channels of the points. -/

/-- The index of the [8,400000,3] array over the result index (b, ch) with the point coordinate n inserted. -/
theorem lift_points (h : S8x400000x3.Reduces [1] S8x3) (b : Fin 8) (ch : Fin 3) (n : Fin 400000) :
    h.lift (ix2 b ch) n = ix3 b n ch :=
  funext fun a => Fin.ext (by match a with | ⟨0, _⟩ => rfl | ⟨1, _⟩ => rfl | ⟨2, _⟩ => rfl)

/-- The first three channels of the points, at an index: the same coordinates in the 4-wide array. -/
theorem idx_slice_points (b : Fin 8) (n : Fin 400000) (ch : Fin 3) :
    idx_main_v0 (ix3 b n ch) = ix3 b n (Cert.Spec.ch4 ch) :=
  funext fun a => Fin.ext (by match a with | ⟨0, _⟩ => rfl | ⟨1, _⟩ => rfl | ⟨2, _⟩ => rfl)

/-- The scaled points at an index: 20 times the point's channel. -/
theorem scaled_apply (x0 : (⟨S8x400000x4, .f32⟩ : BufTy).Contents (Elt Ideal)) (b : Fin 8) (n : Fin 400000) (ch : Fin 3) :
    val_main_v2 (F := Ideal) x0 (ix3 b n ch) = Ideal.ofBits .f32 0x41A00000#32 * x0 (ix3 b n (Cert.Spec.ch4 ch)) := by
  rw [val_main_v2_apply, val_main_v1_apply, val_main_cst_apply, val_main_v0_apply, idx_slice_points]
  rfl

set_option maxHeartbeats 400000 in
theorem ref_min (x0 : (⟨S8x400000x4, .f32⟩ : BufTy).Contents (Elt Ideal)) (b : Fin 8) (ch : Fin 3) :
    val_main_v3 (F := Ideal) x0 (ix2 b ch) = Cert.Spec.scaledMin x0 b ch := by
  have h : S8x400000x3.Reduces [1] S8x3 := by decide
  delta val_main_v3
  refine (Host.reduce_eq_fold_single (α := Ideal .f32) (s := S8x400000x3) (t := S8x3) (a := 1) (u := S_) FloatOps.minimumf
    (val_main_v2 (F := Ideal) x0) (val_main_cst_0 (F := Ideal)) reducesTo_S8x400000x3_S8x3_d1 h h_S_ (ix2 b ch)).trans ?_
  have hf : (val_main_v2 (F := Ideal) x0 ∘ h.lift (ix2 b ch))
      = fun n : Fin 400000 => Ideal.ofBits .f32 0x41A00000#32 * x0 (ix3 b n (Cert.Spec.ch4 ch)) := by
    refine funext fun (n : Fin 400000) => ?_
    show val_main_v2 (F := Ideal) x0 (h.lift (ix2 b ch) n) = _
    rw [lift_points h b ch n, scaled_apply]
  rw [hf]
  rfl

set_option maxHeartbeats 400000 in
theorem ref_max (x0 : (⟨S8x400000x4, .f32⟩ : BufTy).Contents (Elt Ideal)) (b : Fin 8) (ch : Fin 3) :
    val_main_v4 (F := Ideal) x0 (ix2 b ch) = Cert.Spec.scaledMax x0 b ch := by
  have h : S8x400000x3.Reduces [1] S8x3 := by decide
  delta val_main_v4
  refine (Host.reduce_eq_fold_single (α := Ideal .f32) (s := S8x400000x3) (t := S8x3) (a := 1) (u := S_) FloatOps.maximumf
    (val_main_v2 (F := Ideal) x0) (val_main_cst_1 (F := Ideal)) reducesTo_S8x400000x3_S8x3_d1 h h_S_ (ix2 b ch)).trans ?_
  have hf : (val_main_v2 (F := Ideal) x0 ∘ h.lift (ix2 b ch))
      = fun n : Fin 400000 => Ideal.ofBits .f32 0x41A00000#32 * x0 (ix3 b n (Cert.Spec.ch4 ch)) := by
    refine funext fun (n : Fin 400000) => ?_
    show val_main_v2 (F := Ideal) x0 (h.lift (ix2 b ch) n) = _
    rw [lift_points h b ch n, scaled_apply]
  rw [hf]
  rfl

/-! ## The shifted coordinates, a point's least and greatest coordinate, and the valid bit

The shifted coordinate of point (b, n) on channel ch is the scaled point plus the offset at (b, ch), the offset
array being broadcast along the points. A point's least and greatest coordinate are the reduces of the shifted
coordinates over the channel axis; the valid bit is the conjunction of the two comparisons and of the sign test of
the mask word. -/

/-- The offset broadcast along the points, at an index: the offset at (sample, channel). -/
theorem idx_bcast_offset (b : Fin 8) (n : Fin 400000) (ch : Fin 3) :
    idx_main_v23 (idx_main_v24 (ix3 b n ch)) = ix2 b ch :=
  funext fun a => Fin.ext (by match a with | ⟨0, _⟩ => rfl | ⟨1, _⟩ => rfl)

/-- The shifted coordinates at an index. -/
theorem coord_apply (x0 : (⟨S8x400000x4, .f32⟩ : BufTy).Contents (Elt Ideal)) (x3 : (⟨S8x2x3, .f32⟩ : BufTy).Contents (Elt Ideal))
    (b : Fin 8) (n : Fin 400000) (ch : Fin 3) :
    val_main_v25 (F := Ideal) x0 x3 (ix3 b n ch) = Cert.Spec.coord x0 (val_main_v22 (F := Ideal) x0 x3) b n ch := by
  rw [val_main_v25_apply, scaled_apply, val_main_v24_apply, val_main_v23_apply, idx_bcast_offset]
  rfl

/-- The index of the [8,400000,3] array over the result index (b, n) with the channel coordinate inserted. -/
theorem lift_channel (h : S8x400000x3.Reduces [2] S8x400000) (b : Fin 8) (n : Fin 400000) (ch : Fin 3) :
    h.lift (ix2 b n) ch = ix3 b n ch :=
  funext fun a => Fin.ext (by match a with | ⟨0, _⟩ => rfl | ⟨1, _⟩ => rfl | ⟨2, _⟩ => rfl)

set_option maxHeartbeats 400000 in
/-- A point's least shifted coordinate. -/
theorem row_min_apply (x0 : (⟨S8x400000x4, .f32⟩ : BufTy).Contents (Elt Ideal)) (x3 : (⟨S8x2x3, .f32⟩ : BufTy).Contents (Elt Ideal))
    (b : Fin 8) (n : Fin 400000) :
    val_main_v26 (F := Ideal) x0 x3 (ix2 b n) = Cert.Spec.rowMin x0 (val_main_v22 (F := Ideal) x0 x3) b n := by
  have h : S8x400000x3.Reduces [2] S8x400000 := by decide
  delta val_main_v26
  refine (Host.reduce_eq_fold_single (α := Ideal .f32) (s := S8x400000x3) (t := S8x400000) (a := 2) (u := S_) FloatOps.minimumf
    (val_main_v25 (F := Ideal) x0 x3) (val_main_cst_7 (F := Ideal)) reducesTo_S8x400000x3_S8x400000_d2 h h_S_ (ix2 b n)).trans ?_
  have hf : (val_main_v25 (F := Ideal) x0 x3 ∘ h.lift (ix2 b n))
      = fun ch : Fin 3 => Cert.Spec.coord x0 (val_main_v22 (F := Ideal) x0 x3) b n ch := by
    refine funext fun (ch : Fin 3) => ?_
    show val_main_v25 (F := Ideal) x0 x3 (h.lift (ix2 b n) ch) = _
    rw [lift_channel h b n ch, coord_apply]
  rw [hf]
  rfl

set_option maxHeartbeats 400000 in
/-- A point's greatest shifted coordinate. -/
theorem row_max_apply (x0 : (⟨S8x400000x4, .f32⟩ : BufTy).Contents (Elt Ideal)) (x3 : (⟨S8x2x3, .f32⟩ : BufTy).Contents (Elt Ideal))
    (b : Fin 8) (n : Fin 400000) :
    val_main_v29 (F := Ideal) x0 x3 (ix2 b n) = Cert.Spec.rowMax x0 (val_main_v22 (F := Ideal) x0 x3) b n := by
  have h : S8x400000x3.Reduces [2] S8x400000 := by decide
  delta val_main_v29
  refine (Host.reduce_eq_fold_single (α := Ideal .f32) (s := S8x400000x3) (t := S8x400000) (a := 2) (u := S_) FloatOps.maximumf
    (val_main_v25 (F := Ideal) x0 x3) (val_main_cst_9 (F := Ideal)) reducesTo_S8x400000x3_S8x400000_d2 h h_S_ (ix2 b n)).trans ?_
  have hf : (val_main_v25 (F := Ideal) x0 x3 ∘ h.lift (ix2 b n))
      = fun ch : Fin 3 => Cert.Spec.coord x0 (val_main_v22 (F := Ideal) x0 x3) b n ch := by
    refine funext fun (ch : Fin 3) => ?_
    show val_main_v25 (F := Ideal) x0 x3 (h.lift (ix2 b n) ch) = _
    rw [lift_channel h b n ch, coord_apply]
  rw [hf]
  rfl

set_option maxHeartbeats 400000 in
/-- The valid bit at a point. -/
theorem valid_apply (x0 : (⟨S8x400000x4, .f32⟩ : BufTy).Contents (Elt Ideal)) (x2 : (⟨S3200000, .i32⟩ : BufTy).Contents (Elt Ideal))
    (x3 : (⟨S8x2x3, .f32⟩ : BufTy).Contents (Elt Ideal)) (b : Fin 8) (n : Fin 400000) :
    val_main_v36 (F := Ideal) x0 x2 x3 (ix2 b n)
      = Cert.Spec.valid x0 (val_main_v22 (F := Ideal) x0 x3) (val_main_v33 (F := Ideal) x2) b n := by
  rw [val_main_v36_apply, val_main_v32_apply, val_main_v28_apply, val_main_v31_apply, val_main_v35_apply,
    row_min_apply, row_max_apply, val_main_v27_apply, val_main_cst_8_apply, val_main_v30_apply, val_main_cst_10_apply,
    val_main_v34_apply, val_main_c_apply]
  rfl

/-! ## The features

The features plus the sample's noise (broadcast along the points), times the valid bit read as a float. -/

/-- The noise broadcast along the points, at an index: the noise at (sample, channel). -/
theorem idx_bcast_noise (b : Fin 8) (n : Fin 400000) (ch : Fin 3) :
    idx_main_v46 (idx_main_v47 (ix3 b n ch)) = ix2 b ch :=
  funext fun a => Fin.ext (by match a with | ⟨0, _⟩ => rfl | ⟨1, _⟩ => rfl)

/-- The valid bit broadcast along the three channels, at an index: the bit of the point. -/
theorem idx_bcast_valid3 (b : Fin 8) (n : Fin 400000) (ch : Fin 3) :
    idx_main_v49 (idx_main_v51 (ix3 b n ch)) = ix2 b n :=
  funext fun a => Fin.ext (by match a with | ⟨0, _⟩ => rfl | ⟨1, _⟩ => rfl)

set_option maxHeartbeats 400000 in
theorem ref_feats (x0 : (⟨S8x400000x4, .f32⟩ : BufTy).Contents (Elt Ideal)) (x1 : (⟨S8x400000x3, .f32⟩ : BufTy).Contents (Elt Ideal))
    (x2 : (⟨S3200000, .i32⟩ : BufTy).Contents (Elt Ideal)) (x3 : (⟨S8x2x3, .f32⟩ : BufTy).Contents (Elt Ideal))
    (x4 : (⟨S8x3, .f32⟩ : BufTy).Contents (Elt Ideal)) (b : Fin 8) (n : Fin 400000) (ch : Fin 3) :
    val_main_v52 (F := Ideal) x0 x1 x2 x3 x4 (ix3 b n ch)
      = Cert.Spec.feats x0 (val_main_v22 (F := Ideal) x0 x3) (val_main_v33 (F := Ideal) x2) x1 x4 b n ch := by
  rw [val_main_v52_apply, val_main_v48_apply, val_main_v47_apply, val_main_v46_apply, idx_bcast_noise,
    val_main_v51_apply, val_main_v50_apply, val_main_v49_apply, idx_bcast_valid3, valid_apply]
  rfl

/-! ## The new mask

The flat mask words times the valid bit, the bit array being flattened row-major: flat position k is point
(k / 400000, k % 400000), and 400000·(k / 400000) + k % 400000 = k. -/

/-- The point of a flat position. -/
theorem idx_flat_point (k : Fin 3200000) :
    idx_main_v53 (ix1 k)
      = ix2 (⟨k.val / 400000, by have := k.isLt; omega⟩ : Fin 8) (⟨k.val % 400000, Nat.mod_lt _ (by decide)⟩ : Fin 400000) :=
  funext fun a => Fin.ext (by match a with | ⟨0, _⟩ => rfl | ⟨1, _⟩ => rfl)

/-- The flat position of the point of a flat position is that position. -/
theorem idx_point_flat (k : Fin 3200000) :
    idx_main_v33 (ix2 (⟨k.val / 400000, by have := k.isLt; omega⟩ : Fin 8) (⟨k.val % 400000, Nat.mod_lt _ (by decide)⟩ : Fin 400000))
      = ix1 k :=
  funext fun a => Fin.ext (by
    match a with
    | ⟨0, _⟩ => show k.val / 400000 * 400000 + k.val % 400000 = k.val; omega)

set_option maxHeartbeats 400000 in
theorem ref_mask (x0 : (⟨S8x400000x4, .f32⟩ : BufTy).Contents (Elt Ideal)) (x2 : (⟨S3200000, .i32⟩ : BufTy).Contents (Elt Ideal))
    (x3 : (⟨S8x2x3, .f32⟩ : BufTy).Contents (Elt Ideal)) (h : S8x400000.ShapeCasts S3200000) :
    val_main_v55 (F := Ideal) x0 x2 x3
      = shapeCast S3200000 (fun j : S8x400000.Idx =>
          Cert.Spec.newMask x0 (val_main_v22 (F := Ideal) x0 x3) (val_main_v33 (F := Ideal) x2) (j 0) (j 1)) h := by
  funext i
  obtain ⟨k, rfl⟩ : ∃ k : Fin 3200000, i = ix1 k := ⟨i 0, eq_ix1 i⟩
  rw [shapeCast_apply _ h (ix1 k) (idx_main_v53 (ix1 k))
    (by rewrite [Shape.rowMajor_val_two, Shape.rowMajor_val_one]
        show k.val / 400000 * 400000 + k.val % 400000 = k.val; omega)]
  rw [val_main_v55_apply, val_main_v54_apply, val_main_v53_apply, idx_flat_point, valid_apply]
  show IntOp.muli (x2 (ix1 k)) _ = IntOp.muli (val_main_v33 (F := Ideal) x2 (ix2 _ _)) _
  rw [val_main_v33_apply, idx_point_flat]

/-! ## The integer locations

The three shifted coordinates truncated to integers, joined along the channel axis with the sample-number column,
times the valid bit widened to a word. Channels 0, 1, 2 of the joined array come from the first piece; channel 3 is
the one column of the second piece. -/

/-- The valid bit broadcast along the four channels, at an index: the bit of the point. -/
theorem idx_bcast_valid4 (b : Fin 8) (n : Fin 400000) (ch : Fin 4) :
    idx_main_v42 (idx_main_v44 (ix3 b n ch)) = ix2 b n :=
  funext fun a => Fin.ext (by match a with | ⟨0, _⟩ => rfl | ⟨1, _⟩ => rfl)

set_option maxHeartbeats 400000 in
/-- The joined array at a coordinate channel: the truncated shifted coordinate. -/
theorem joined_left (x0 : (⟨S8x400000x4, .f32⟩ : BufTy).Contents (Elt Ideal)) (x3 : (⟨S8x2x3, .f32⟩ : BufTy).Contents (Elt Ideal))
    (b : Fin 8) (n : Fin 400000) (ch : Fin 4) (hc : ch.val < 3) :
    val_main_v41 (F := Ideal) x0 x3 (ix3 b n ch)
      = FloatOps.fptosi (F := Ideal) (φ := .f32) 32 (Cert.Spec.coord x0 (val_main_v22 (F := Ideal) x0 x3) b n ⟨ch.val, hc⟩) := by
  delta val_main_v41
  rw [concatenate_pair_apply_left (t := S8x400000x4) (s₁ := S8x400000x3) (s₂ := S8x400000x1) 2
    (val_main_v37 (F := Ideal) x0 x3) (val_main_v40 (F := Ideal)) concatenates_S8x400000x3_S8x400000x1_S8x400000x4_d2
    (ix3 b n ch) rfl (ix3 b n (⟨ch.val, hc⟩ : Fin 3))
    (fun a => by match a with | ⟨0, _⟩ => rfl | ⟨1, _⟩ => rfl | ⟨2, _⟩ => rfl)]
  rw [val_main_v37_apply, coord_apply]

set_option maxHeartbeats 400000 in
/-- The joined array at the last channel: the sample number. -/
theorem joined_right (x0 : (⟨S8x400000x4, .f32⟩ : BufTy).Contents (Elt Ideal)) (x3 : (⟨S8x2x3, .f32⟩ : BufTy).Contents (Elt Ideal))
    (b : Fin 8) (n : Fin 400000) (ch : Fin 4) (hc : ¬ ch.val < 3) :
    val_main_v41 (F := Ideal) x0 x3 (ix3 b n ch) = BitVec.ofNat 32 b.val := by
  have hc3 : ch.val = 3 := by have := ch.isLt; omega
  delta val_main_v41
  rw [concatenate_pair_apply_right (t := S8x400000x4) (s₁ := S8x400000x3) (s₂ := S8x400000x1) 2
    (val_main_v37 (F := Ideal) x0 x3) (val_main_v40 (F := Ideal)) concatenates_S8x400000x3_S8x400000x1_S8x400000x4_d2
    (ix3 b n ch) rfl rfl (ix3 b n (0 : Fin 1))
    (fun a ha => by
      match a, ha with
      | ⟨0, _⟩, _ => rfl
      | ⟨1, _⟩, _ => rfl
      | ⟨2, _⟩, ha => exact absurd rfl ha)
    (by show 0 + 3 = ch.val; omega)]
  rw [val_main_v40_apply, val_main_v39_apply, val_main_v38_apply]

set_option maxHeartbeats 400000 in
theorem ref_locs (x0 : (⟨S8x400000x4, .f32⟩ : BufTy).Contents (Elt Ideal)) (x2 : (⟨S3200000, .i32⟩ : BufTy).Contents (Elt Ideal))
    (x3 : (⟨S8x2x3, .f32⟩ : BufTy).Contents (Elt Ideal)) (b : Fin 8) (n : Fin 400000) (ch : Fin 4) :
    val_main_v45 (F := Ideal) x0 x2 x3 (ix3 b n ch)
      = Cert.Spec.locs x0 (val_main_v22 (F := Ideal) x0 x3) (val_main_v33 (F := Ideal) x2) b n ch := by
  rw [val_main_v45_apply, val_main_v44_apply, val_main_v43_apply, val_main_v42_apply, idx_bcast_valid4, valid_apply]
  delta Cert.Spec.locs
  by_cases hc : ch.val < 3
  · rw [dif_pos hc, joined_left x0 x3 b n ch hc]
  · rw [dif_neg hc, joined_right x0 x3 b n ch hc]

end Cert.ReferenceIdeal.RefValue

end
-- ==== Proof.RefBridge.lean ====
/-
  The idealized reference's run with its four results at the specification's arrays.

  The reference computes everything with whole-array operations. Read at an index, its two reduce stages over the points axis are
  the scaled extremes (the least and the greatest of 20·points(b,·,ch)), the chain after them is the specification's `offsetFn`,
  and its location, feature and new-mask stages are the specification's pointwise formulas with that offset and its own
  [8, 400000] view of the mask words — so each result buffer ends at the corresponding array of the launched arguments.
-/
import proofs.«168431_j2327872274833_2_alg».proof.Proof.Results
import proofs.«168431_j2327872274833_2_alg».proof.Proof.RefRead
import proofs.«168431_j2327872274833_2_alg».proof.Proof.RefValue
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

/-! ## The reference's results -/

namespace Cert.ReferenceIdeal.RValue

open Cert.ReferenceIdeal Cert.ReferenceIdeal.Gen Cert.ReferenceIdeal.ReadP Cert.ReferenceIdeal.RefValue Cert.Bridge

variable (x0 : (⟨S8x400000x4, .f32⟩ : BufTy).Contents (Elt Ideal)) (x1 : (⟨S8x400000x3, .f32⟩ : BufTy).Contents (Elt Ideal))
  (x2 : (⟨S3200000, .i32⟩ : BufTy).Contents (Elt Ideal)) (x3 : (⟨S8x2x3, .f32⟩ : BufTy).Contents (Elt Ideal))
  (x4 : (⟨S8x3, .f32⟩ : BufTy).Contents (Elt Ideal))

/-- The reference's offset stage is the specification's offset of the points and the random factors: its two reduce stages are
    the arrays of scaled extremes, and the chain after them is `offsetFn`. -/
theorem offset_eq : val_main_v22 (F := Ideal) x0 x3 = offsetOf x0 x3 := by
  have h3 : val_main_v3 (F := Ideal) x0 = fun j => Cert.Spec.scaledMin x0 (j 0) (j 1) := funext fun j => by
    obtain ⟨b, ch, rfl⟩ : ∃ (b : Fin 8) (ch : Fin 3), j = ix2 b ch := ⟨j 0, j 1, eq_ix2 j⟩
    exact ref_min x0 b ch
  have h4 : val_main_v4 (F := Ideal) x0 = fun j => Cert.Spec.scaledMax x0 (j 0) (j 1) := funext fun j => by
    obtain ⟨b, ch, rfl⟩ : ∃ (b : Fin 8) (ch : Fin 3), j = ix2 b ch := ⟨j 0, j 1, eq_ix2 j⟩
    exact ref_max x0 b ch
  rw [ref_offset, h3, h4]
  rfl

/-- The reference's [8, 400000] view of the mask words is the specification's. -/
theorem mask2d_eq : val_main_v33 (F := Ideal) x2 = maskOf x2 := rfl

theorem locs_eq : val_main_v45 (F := Ideal) x0 x2 x3 = locsOf x0 x3 x2 := by
  funext i
  obtain ⟨b, n, ch, rfl⟩ : ∃ (b : Fin 8) (n : Fin 400000) (ch : Fin 4), i = ix3 b n ch := ⟨i 0, i 1, i 2, eq_ix3 i⟩
  rw [ref_locs, offset_eq, mask2d_eq]
  rfl

theorem feats_eq : val_main_v52 (F := Ideal) x0 x1 x2 x3 x4 = featsOf x0 x3 x2 x1 x4 := by
  funext i
  obtain ⟨b, n, ch, rfl⟩ : ∃ (b : Fin 8) (n : Fin 400000) (ch : Fin 3), i = ix3 b n ch := ⟨i 0, i 1, i 2, eq_ix3 i⟩
  rw [ref_feats, offset_eq, mask2d_eq]
  rfl

theorem mask_eq : val_main_v55 (F := Ideal) x0 x2 x3 = newMaskOf x0 x3 x2 := by
  rw [ref_mask x0 x2 x3 shapeCasts_S8x400000_S3200000, offset_eq, mask2d_eq]
  rfl

/-- The idealized reference's run, its results at the specification's arrays of the launched arguments. -/
theorem run (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_v45)
        = locsOf (m' ((c.tc : Thread nD τ).loc main_arg0)) (m' ((c.tc : Thread nD τ).loc main_arg3)) (m' ((c.tc : Thread nD τ).loc main_arg2))
      ∧ r.2.mem ((c.tc : Thread nD τ).loc main_v52)
        = featsOf (m' ((c.tc : Thread nD τ).loc main_arg0)) (m' ((c.tc : Thread nD τ).loc main_arg3)) (m' ((c.tc : Thread nD τ).loc main_arg2))
            (m' ((c.tc : Thread nD τ).loc main_arg1)) (m' ((c.tc : Thread nD τ).loc main_arg4))
      ∧ r.2.mem ((c.tc : Thread nD τ).loc main_v55)
        = newMaskOf (m' ((c.tc : Thread nD τ).loc main_arg0)) (m' ((c.tc : Thread nD τ).loc main_arg3)) (m' ((c.tc : Thread nD τ).loc main_arg2))
      ∧ r.2.mem ((c.tc : Thread nD τ).loc main_v22)
        = offsetOf (m' ((c.tc : Thread nD τ).loc main_arg0)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c =>
    ⟨(h c).1.trans ((val_main_v45_eq m' c).trans (locs_eq _ _ _)),
     (h c).2.1.trans ((val_main_v52_eq m' c).trans (feats_eq _ _ _ _ _)),
     (h c).2.2.1.trans ((val_main_v55_eq m' c).trans (mask_eq _ _ _)),
     (h c).2.2.2.1.trans ((val_main_v22_eq _ _).trans (offset_eq _ _)),
     (h c).2.2.2.2⟩) (Cert.ReferenceIdeal.ValueP.run (F := Ideal) m' ρ')

end Cert.ReferenceIdeal.RValue

end
-- ==== Proof.lean ====
/-
  The certificate: a two-pass point-cloud transform against its whole-array reference.

  Both programs take points [8, 400000, 4], features [8, 400000, 3], flat mask words [3200000], random factors [8, 2, 3] and noise
  [8, 3]. With m and M the least and the greatest of 20·points(b,·,ch) over a sample's points, the OFFSET is
      −m + max(0, room − ε)·u₀ + min(0, room + ε)·u₁,   room = 4096 − (M − m),
  the shifted coordinates are 20·points + offset, a point is valid when its three coordinates lie in [0, 4096) and its mask word is
  positive, and the results are the integer coordinates with the sample number (times the valid bit), the features plus noise
  (times the valid bit), the mask words times the valid bit, and the offset itself.

  The reference scales the points first and reduces with whole-array operations. The kernel reduces the RAW points in a first grid
  pass — blocks of 5000 points, a running least and greatest per half of the batch, reset to ±∞ at the first block of each half —,
  scales the two small arrays of extremes afterwards, and applies the pointwise transform in a second grid pass over blocks of 640
  points. The one law between them: multiplication by the positive constant 20 is monotone on the extended reals and fixes ±∞, so
  it commutes with the least and the greatest of any family (Proof/Laws.lean); and the running extreme over consecutive blocks is
  the extreme over all points (Proof/Region0.lean). Neither needs the inputs to be finite, so the precondition is not opened.

  The frames of the two printed kernels are the generated ones. The reference's frame is its run with the results dropped. The
  idealization rewrote nothing. For the value claim both runs are brought to the SAME four arrays of the launched arguments
  (Proof/Results.lean): the kernel's through its segment chain, the two regions' output arrays and the operations between them
  (Proof/KernelRun.lean, Region0.lean, Region1.lean, KernelBridge.lean), the reference's through its operations read at an index
  (Proof/RefValue.lean, RefBridge.lean).
-/
import proofs.«168431_j2327872274833_2_alg».proof.Defs
import proofs.«168431_j2327872274833_2_alg».proof.Proof.Gen.Kernel
import proofs.«168431_j2327872274833_2_alg».proof.Proof.Gen.Kernel.Skeleton
import proofs.«168431_j2327872274833_2_alg».proof.Proof.Gen.Kernel.Launch
import proofs.«168431_j2327872274833_2_alg».proof.Proof.Gen.Kernel.Points
import proofs.«168431_j2327872274833_2_alg».proof.Proof.Gen.Kernel.Frame
import proofs.«168431_j2327872274833_2_alg».proof.Proof.Gen.KernelIdeal
import proofs.«168431_j2327872274833_2_alg».proof.Proof.Gen.KernelIdeal.Skeleton
import proofs.«168431_j2327872274833_2_alg».proof.Proof.Gen.KernelIdeal.Launch
import proofs.«168431_j2327872274833_2_alg».proof.Proof.Gen.KernelIdeal.Points
import proofs.«168431_j2327872274833_2_alg».proof.Proof.Gen.KernelIdeal.Frame
import proofs.«168431_j2327872274833_2_alg».proof.Proof.Gen.ReferenceIdeal
import proofs.«168431_j2327872274833_2_alg».proof.Proof.Gen.Pre_finite_inputs
import proofs.«168431_j2327872274833_2_alg».proof.Proof.KernelBridge
import proofs.«168431_j2327872274833_2_alg».proof.Proof.RefBridge
import Idealize.ShloMosaic.Adequacy
import Idealize.ShloMosaic.Init

set_option maxRecDepth 16384

noncomputable section

open Idealize.ShloMosaic Idealize.ShloMosaic.TcCoe Idealize.SL.Sem

namespace Cert.Proof

open Cert.Bridge

/-- The printed kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The idealization rewrote no operation. -/
theorem preserves : Cert.preserves_Kernel_KernelIdeal := trivial

/-- From memories that agree on the five arguments both programs end with the same four arrays: each run's results are the
    specification's arrays of its own launched arguments, and the arguments agree. -/
theorem algebraic : Cert.algebraic_KernelIdeal_ReferenceIdeal := by
  intro m ρ m' ρ' _ hagree
  refine ⟨fun c => locsOf (m ((c.tc : Thread Cert.KernelIdeal.nD Cert.KernelIdeal.τ).loc Cert.KernelIdeal.main_arg0))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg2)),
          fun c => featsOf (m ((c.tc : Thread Cert.KernelIdeal.nD Cert.KernelIdeal.τ).loc Cert.KernelIdeal.main_arg0))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4)),
          fun c => newMaskOf (m ((c.tc : Thread Cert.KernelIdeal.nD Cert.KernelIdeal.τ).loc Cert.KernelIdeal.main_arg0))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg2)),
          fun c => offsetOf (m ((c.tc : Thread Cert.KernelIdeal.nD Cert.KernelIdeal.τ).loc Cert.KernelIdeal.main_arg0))
            (m ((c.tc : Thread Cert.KernelIdeal.nD Cert.KernelIdeal.τ).loc Cert.KernelIdeal.main_arg3)),
          Cert.KernelIdeal.KValue.run m ρ, ?_⟩
  refine (θ_run Cert.ReferenceIdeal.defs _ _).mono (fun _ h c => ?_) (Cert.ReferenceIdeal.RValue.run m' ρ')
  have hc := h c
  rw [(hagree c).1, (hagree c).2.1, (hagree c).2.2.1, (hagree c).2.2.2.1, (hagree c).2.2.2.2] at hc
  refine ⟨hc.1, hc.2.1, hc.2.2.1, hc.2.2.2.1, ?_, ?_, ?_, ?_, ?_⟩
  · rw [(hagree c).1]; exact hc.2.2.2.2.1
  · rw [(hagree c).2.1]; exact hc.2.2.2.2.2.1
  · rw [(hagree c).2.2.1]; exact hc.2.2.2.2.2.2.1
  · rw [(hagree c).2.2.2.1]; exact hc.2.2.2.2.2.2.2.1
  · rw [(hagree c).2.2.2.2]; exact hc.2.2.2.2.2.2.2.2

/-- The five claims, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
